-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x5 : Shape := ⟨2, ![2048, 5]⟩
abbrev S16384x2 : Shape := ⟨2, ![16384, 2]⟩
abbrev S_ : Shape := ⟨0, ![]⟩

class Facts : Prop where
  bcast_S_S2048x5 : S_.BroadcastsInDim S2048x5 (![] : Fin 0 → Fin S2048x5.rank)
  reducesTo_S2048x5_S_d0_1 : S2048x5.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S2048x5 .f32) (main_arg1 : FVec F S2048x5 .f32) (main_arg2 : FVec F S16384x2 .f32) : IVec S_ 1 :=
  let main_v0 : FVec F S2048x5 .f32 := Host.absf main_arg0
  let main_cst : FVec F S_ .f32 := constant S_ .f32 0x7F800000#32
  let main_v1 : FVec F S2048x5 .f32 := broadcastInDim S2048x5 ![] bcast_S_S2048x5 main_cst
  let main_v2 : IVec S2048x5 1 := cmpf .olt main_v0 main_v1
  let main_c : IVec S_ 1 := constantI S_ 1 1#1
  let main_v3 : IVec S_ 1 := (fun x v => Host.reduce IntOp.andi x v reducesTo_S2048x5_S_d0_1 h_S_) main_v2 main_c
  let main_v4 : FVec F S2048x5 .f32 := Host.absf main_arg1
  let main_cst_0 : FVec F S_ .f32 := constant S_ .f32 0x7F800000#32
  let main_v5 : FVec F S2048x5 .f32 := broadcastInDim S2048x5 ![] bcast_S_S2048x5 main_cst_0
  let main_v6 : IVec S2048x5 1 := cmpf .olt main_v4 main_v5
  let main_c_1 : IVec S_ 1 := constantI S_ 1 1#1
  let main_v7 : IVec S_ 1 := (fun x v => Host.reduce IntOp.andi x v reducesTo_S2048x5_S_d0_1 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  main_v13
-- ==== Kernel.lean ====
abbrev S2048x5 : Shape := ⟨2, ![2048, 5]⟩
abbrev S16384x2 : Shape := ⟨2, ![16384, 2]⟩
abbrev S2x16384 : Shape := ⟨2, ![2, 16384]⟩
abbrev S2048x1 : Shape := ⟨2, ![2048, 1]⟩
abbrev S256x5 : Shape := ⟨2, ![256, 5]⟩
abbrev S2x2048 : Shape := ⟨2, ![2, 2048]⟩
abbrev S256x1 : Shape := ⟨2, ![256, 1]⟩
abbrev S1x2048 : Shape := ⟨2, ![1, 2048]⟩
abbrev S256x2048 : Shape := ⟨2, ![256, 2048]⟩
abbrev S256 : Shape := ⟨1, ![256]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x5, .f32⟩
  | .hbm, ⟨1, _⟩ => ⟨S2048x5, .f32⟩
  | .hbm, ⟨2, _⟩ => ⟨S16384x2, .f32⟩
  | .hbm, ⟨3, _⟩ => ⟨S2x16384, .f32⟩
  | .hbm, ⟨4, _⟩ => ⟨S2048x1, .f32⟩
  | .hbm, ⟨5, _⟩ => ⟨S2048, .f32⟩
  | .local _ .vmem, ⟨0, _⟩ => ⟨S256x5, .f32⟩
  | .local _ .vmem, ⟨1, _⟩ => ⟨S256x5, .f32⟩
  | .local _ .vmem, ⟨2, _⟩ => ⟨S256x5, .f32⟩
  | .local _ .vmem, ⟨3, _⟩ => ⟨S256x5, .f32⟩
  | .local _ .vmem, ⟨4, _⟩ => ⟨S2x2048, .f32⟩
  | .local _ .vmem, ⟨5, _⟩ => ⟨S2x2048, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v120 : BitVec 1 := Scalar.cmpi .eq arg1 c7_i32
  let v121 : BitVec 32 := Scalar.extui v120
  let c0_i32_45 : BitVec 32 := 0#32
  let v122 : BitVec 1 := Scalar.cmpi .ne v121 c0_i32_45
  v122

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16384x2_S2x16384_1_0 : S16384x2.Transposes [1, 0] S2x16384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2x2048_S1x2048_0_0 : ∀ a, (![0, 0] : Fin 2 → Nat) a + S1x2048.size a ≤ S2x2048.size a
  h_S1x2048 : 0 < S1x2048.numel
  shapeCasts_S1x2048_S1x2048 : S1x2048.ShapeCasts S1x2048
  inb_S2x2048_S1x2048_1_0 : ∀ a, (![1, 0] : Fin 2 → Nat) a + S1x2048.size a ≤ S2x2048.size a
  inb_S256x5_S256x1_0_0 : ∀ a, (![0, 0] : Fin 2 → Nat) a + S256x1.size a ≤ S256x5.size a
  inb_S256x5_S256x1_0_1 : ∀ a, (![0, 1] : Fin 2 → Nat) a + S256x1.size a ≤ S256x5.size a
  inb_S256x5_S256x1_0_2 : ∀ a, (![0, 2] : Fin 2 → Nat) a + S256x1.size a ≤ S256x5.size a
  inb_S256x5_S256x1_0_3 : ∀ a, (![0, 3] : Fin 2 → Nat) a + S256x1.size a ≤ S256x5.size a
  inb_S256x5_S256x1_0_4 : ∀ a, (![0, 4] : Fin 2 → Nat) a + S256x1.size a ≤ S256x5.size a
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  shapeCasts_S2048x1_S2048 : S2048x1.ShapeCasts S2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5.size a ≤ S2048x5.size a
  hwx0_0 : ∀ i : grid0.Coords, EltTy.bits .f32 = 32 ∨ (Rect.block (s := S2048x5) S256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x5.size a ≤ S2048x5.size a
  hwx0_1 : ∀ i : grid0.Coords, EltTy.bits .f32 = 32 ∨ (Rect.block (s := S2048x5) S256x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x16384.size a
  hwx0_2 : ∀ i : grid0.Coords, EltTy.bits .f32 = 32 ∨ (Rect.block (s := S2x16384) S2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)

variable [Facts₀]

abbrev win0_0 : Pipeline.Window sig grid0 :=
  Pipeline.Window.ofSpec (Memref.whole main_arg0) S256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x5 : Shape := ⟨2, ![2048, 5]⟩
abbrev S16384x2 : Shape := ⟨2, ![16384, 2]⟩
abbrev S2048x1 : Shape := ⟨2, ![2048, 1]⟩
abbrev S16384x1 : Shape := ⟨2, ![16384, 1]⟩
abbrev S16384 : Shape := ⟨1, ![16384]⟩
abbrev S1x16384 : Shape := ⟨2, ![1, 16384]⟩
abbrev S2048x16384 : Shape := ⟨2, ![2048, 16384]⟩
abbrev S_ : Shape := ⟨0, ![]⟩
abbrev S2048 : Shape := ⟨1, ![2048]⟩

abbrev nBuf : Space → Nat
  | .hbm => 144
  | .vmem => 0
  | .smem => 0
  | _ => 0

abbrev hbmTy0_0 (i : Nat) : BufTy := match i % 128 with
  | 0 => ⟨S2048x5, .f32⟩
  | 1 => ⟨S2048x5, .f32⟩
  | 2 => ⟨S16384x2, .f32⟩
  | 3 => ⟨S2048x1, .f32⟩
  | 4 => ⟨S2048x1, .f32⟩
  | 5 => ⟨S2048x1, .f32⟩
  | 6 => ⟨S2048x1, .f32⟩
  | 7 => ⟨S2048x1, .f32⟩
  | 8 => ⟨S16384x1, .f32⟩
  | 9 => ⟨S16384, .f32⟩
  | 10 => ⟨S1x16384, .f32⟩
  | 11 => ⟨S2048x16384, .f32⟩
  | 12 => ⟨S2048x16384, .f32⟩
  | 13 => ⟨S2048x16384, .f32⟩
  | 14 => ⟨S16384x1, .f32⟩
  | 15 => ⟨S16384, .f32⟩
  | 16 => ⟨S1x16384, .f32⟩
  | 17 => ⟨S2048x16384, .f32⟩
  | 18 => ⟨S2048x16384, .f32⟩
  | 19 => ⟨S2048x16384, .f32⟩
  | 20 => ⟨S2048x1, .f32⟩
  | 21 => ⟨S2048x1, .f32⟩
  | 22 => ⟨S2048x16384, .f32⟩
  | 23 => ⟨S2048x16384, .f32⟩
  | 24 => ⟨S2048x16384, .f32⟩
  | 25 => ⟨S2048x16384, .f32⟩
  | 26 => ⟨S2048x16384, .f32⟩
  | 27 => ⟨S2048x16384, .f32⟩
  | 28 => ⟨S2048x16384, .f32⟩
  | 29 => ⟨S2048x16384, .f32⟩
  | 30 => ⟨S2048x16384, .f32⟩
  | 31 => ⟨S2048x16384, .f32⟩
  | 32 => ⟨S2048x16384, .f32⟩
  | 33 => ⟨S2048x16384, .f32⟩
  | 34 => ⟨S2048x16384, .f32⟩
  | 35 => ⟨S_, .f32⟩
  | 36 => ⟨S2048x1, .f32⟩
  | 37 => ⟨S2048x1, .f32⟩
  | 38 => ⟨S2048x16384, .f32⟩
  | 39 => ⟨S2048x16384, .f32⟩
  | 40 => ⟨S_, .f32⟩
  | 41 => ⟨S2048x16384, .f32⟩
  | 42 => ⟨S2048x16384, .f32⟩
  | 43 => ⟨S2048x16384, .f32⟩
  | 44 => ⟨S2048x16384, .f32⟩
  | 45 => ⟨S_, .f32⟩
  | 46 => ⟨S2048x16384, .f32⟩
  | 47 => ⟨S2048x16384, .f32⟩
  | 48 => ⟨S_, .f32⟩
  | 49 => ⟨S2048x16384, .f32⟩
  | 50 => ⟨S2048x16384, .f32⟩
  | 51 => ⟨S_, .f32⟩
  | 52 => ⟨S2048x1, .f32⟩
  | 53 => ⟨S2048x1, .f32⟩
  | 54 => ⟨S2048x16384, .f32⟩
  | 55 => ⟨S2048x16384, .f32⟩
  | 56 => ⟨S_, .f32⟩
  | 57 => ⟨S2048x16384, .f32⟩
  | 58 => ⟨S2048x16384, .f32⟩
  | 59 => ⟨S2048x16384, .f32⟩
  | 60 => ⟨S2048x16384, .f32⟩
  | 61 => ⟨S_, .f32⟩
  | 62 => ⟨S2048x16384, .f32⟩
  | 63 => ⟨S2048x16384, .f32⟩
  | 64 => ⟨S_, .f32⟩
  | 65 => ⟨S2048x16384, .f32⟩
  | 66 => ⟨S2048x16384, .f32⟩
  | 67 => ⟨S2048x16384, .f32⟩
  | 68 => ⟨S2048x1, .f32⟩
  | 69 => ⟨S2048x1, .f32⟩
  | 70 => ⟨S2048x1, .f32⟩
  | 71 => ⟨S2048x1, .f32⟩
  | 72 => ⟨S2048x1, .f32⟩
  | 73 => ⟨S16384x1, .f32⟩
  | 74 => ⟨S16384, .f32⟩
  | 75 => ⟨S1x16384, .f32⟩
  | 76 => ⟨S2048x16384, .f32⟩
  | 77 => ⟨S2048x16384, .f32⟩
  | 78 => ⟨S2048x16384, .f32⟩
  | 79 => ⟨S16384x1, .f32⟩
  | 80 => ⟨S16384, .f32⟩
  | 81 => ⟨S1x16384, .f32⟩
  | 82 => ⟨S2048x16384, .f32⟩
  | 83 => ⟨S2048x16384, .f32⟩
  | 84 => ⟨S2048x16384, .f32⟩
  | 85 => ⟨S2048x1, .f32⟩
  | 86 => ⟨S2048x1, .f32⟩
  | 87 => ⟨S2048x16384, .f32⟩
  | 88 => ⟨S2048x16384, .f32⟩
  | 89 => ⟨S2048x16384, .f32⟩
  | 90 => ⟨S2048x16384, .f32⟩
  | 91 => ⟨S2048x16384, .f32⟩
  | 92 => ⟨S2048x16384, .f32⟩
  | 93 => ⟨S2048x16384, .f32⟩
  | 94 => ⟨S2048x16384, .f32⟩
  | 95 => ⟨S2048x16384, .f32⟩
  | 96 => ⟨S2048x16384, .f32⟩
  | 97 => ⟨S2048x16384, .f32⟩
  | 98 => ⟨S2048x16384, .f32⟩
  | 99 => ⟨S2048x16384, .f32⟩
  | 100 => ⟨S_, .f32⟩
  | 101 => ⟨S2048x1, .f32⟩
  | 102 => ⟨S2048x1, .f32⟩
  | 103 => ⟨S2048x16384, .f32⟩
  | 104 => ⟨S2048x16384, .f32⟩
  | 105 => ⟨S_, .f32⟩
  | 106 => ⟨S2048x16384, .f32⟩
  | 107 => ⟨S2048x16384, .f32⟩
  | 108 => ⟨S2048x16384, .f32⟩
  | 109 => ⟨S2048x16384, .f32⟩
  | 110 => ⟨S_, .f32⟩
  | 111 => ⟨S2048x16384, .f32⟩
  | 112 => ⟨S2048x16384, .f32⟩
  | 113 => ⟨S_, .f32⟩
  | 114 => ⟨S2048x16384, .f32⟩
  | 115 => ⟨S2048x16384, .f32⟩
  | 116 => ⟨S_, .f32⟩
  | 117 => ⟨S2048x1, .f32⟩
  | 118 => ⟨S2048x1, .f32⟩
  | 119 => ⟨S2048x16384, .f32⟩
  | 120 => ⟨S2048x16384, .f32⟩
  | 121 => ⟨S_, .f32⟩
  | 122 => ⟨S2048x16384, .f32⟩
  | 123 => ⟨S2048x16384, .f32⟩
  | 124 => ⟨S2048x16384, .f32⟩
  | 125 => ⟨S2048x16384, .f32⟩
  | 126 => ⟨S_, .f32⟩
  | 127 => ⟨S2048x16384, .f32⟩
  | _ => ⟨S2048x5, .f32⟩

abbrev hbmTy0_1 (i : Nat) : BufTy := match i % 128 with
  | 0 => ⟨S2048x16384, .f32⟩
  | 1 => ⟨S_, .f32⟩
  | 2 => ⟨S2048x16384, .f32⟩
  | 3 => ⟨S2048x16384, .f32⟩
  | 4 => ⟨S2048x16384, .f32⟩
  | 5 => ⟨S2048x16384, .f32⟩
  | 6 => ⟨S_, .f32⟩
  | 7 => ⟨S2048, .f32⟩
  | 8 => ⟨S2048x16384, .f32⟩
  | 9 => ⟨S_, .f32⟩
  | 10 => ⟨S2048, .f32⟩
  | 11 => ⟨S2048, .f32⟩
  | 12 => ⟨S_, .f32⟩
  | 13 => ⟨S2048, .f32⟩
  | 14 => ⟨S2048, .f32⟩
  | 15 => ⟨S2048, .f32⟩
  | _ => ⟨S2048x5, .f32⟩

abbrev hbmTy (i : Nat) : BufTy := match i / 128 with
  | 0 => hbmTy0_0 i
  | 1 => hbmTy0_1 i
  | _ => ⟨S2048x5, .f32⟩

abbrev bufTy : (tb : Table) → Fin (tcTables nBuf tb) → BufTy
  | .hbm, ⟨i, _⟩ => hbmTy i
  | _, _ => ⟨S2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_9 : Ref sig .tc := ⟨.hbm, 110, rfl⟩
abbrev main_v97 : Ref sig .tc := ⟨.hbm, 111, rfl⟩
abbrev main_v98 : Ref sig .tc := ⟨.hbm, 112, rfl⟩
abbrev main_cst_10 : Ref sig .tc := ⟨.hbm, 113, rfl⟩
abbrev main_v99 : Ref sig .tc := ⟨.hbm, 114, rfl⟩
abbrev main_v100 : Ref sig .tc := ⟨.hbm, 115, rfl⟩
abbrev main_cst_11 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_12 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_13 : Ref sig .tc := ⟨.hbm, 126, rfl⟩
abbrev main_v109 : Ref sig .tc := ⟨.hbm, 127, rfl⟩
abbrev main_v110 : Ref sig .tc := ⟨.hbm, 128, rfl⟩
abbrev main_cst_14 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_15 : Ref sig .tc := ⟨.hbm, 134, rfl⟩
abbrev main_v115 : Ref sig .tc := ⟨.hbm, 135, rfl⟩
abbrev main_v116 : Ref sig .tc := ⟨.hbm, 136, rfl⟩
abbrev main_cst_16 : Ref sig .tc := ⟨.hbm, 137, rfl⟩
abbrev main_v117 : Ref sig .tc := ⟨.hbm, 138, rfl⟩
abbrev main_v118 : Ref sig .tc := ⟨.hbm, 139, rfl⟩
abbrev main_cst_17 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩

abbrev nD : Nat := 1
abbrev τ : Topo := Topo.v7x

variable {F : FTy → Type} [FloatOps F]

class Facts₀ : Prop where
  slices_S2048x5_S2048x1_0_0 : S2048x5.Slices ![0, 0] S2048x1
  slices_S2048x5_S2048x1_0_1 : S2048x5.Slices ![0, 1] S2048x1
  slices_S2048x5_S2048x1_0_2 : S2048x5.Slices ![0, 2] S2048x1
  slices_S2048x5_S2048x1_0_3 : S2048x5.Slices ![0, 3] S2048x1
  slices_S2048x5_S2048x1_0_4 : S2048x5.Slices ![0, 4] S2048x1
  slices_S16384x2_S16384x1_0_0 : S16384x2.Slices ![0, 0] S16384x1
  shapeCasts_S16384x1_S16384 : S16384x1.ShapeCasts S16384
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  bcast_S2048x1_S2048x16384_0_1 : S2048x1.BroadcastsInDim S2048x16384 (![0, 1] : Fin 2 → Fin S2048x16384.rank)
  slices_S16384x2_S16384x1_0_1 : S16384x2.Slices ![0, 1] S16384x1
  bcast_S_S2048x1 : S_.BroadcastsInDim S2048x1 (![] : Fin 0 → Fin S2048x1.rank)
  bcast_S_S2048x16384 : S_.BroadcastsInDim S2048x16384 (![] : Fin 0 → Fin S2048x16384.rank)
  reducesTo_S2048x16384_S2048_d1 : S2048x16384.ReducesTo [1] S2048
  h_S_ : 0 < S_.numel
  bcast_S_S2048 : S_.BroadcastsInDim S2048 (![] : Fin 0 → Fin S2048.rank)

variable [Facts₀]

class Facts : Prop extends Facts₀ where

variable [Facts]
-- ==== Proof.Spec.lean ====
/-
  The quantity both programs compute, as one function of the three argument arrays.

  A box is a row `(cx, cy, w, h, θ)`; a pixel a row `(gx, gy)`. With `tx = gx - cx`, `ty = gy - cy` the pixel's
  offset from the box's centre, the box's two axes see it at `|tx·cos θ + ty·sin θ|` and `|-tx·sin θ + ty·cos θ|`;
  its soft membership is the product of two logistic factors `σ(10·(w/2 - ·))·σ(10·(h/2 - ·))`, `σ a = 1/(1 + e^{-a})`.
  For box row `n` of the two box arrays, with `Fp`, `Ft` the memberships of every pixel, the result is
  `I / ((S - I) + ε)`, `I = Σ Fp·Ft`, `S = Σ (Fp + Ft)` over the 16384 pixels.

  One side spells a membership as the product of two quotients and sums over all pixels at once (`weight`, `iou`);
  the other as one quotient by the product of the denominators, with `(-10)·a` for `-(10·a)` and `0 - tx` for `-tx`,
  summed tile by tile over 8 tiles of 2048 pixels, the tile's `S - I` accumulated (`weightK`, `iouK`).
-/
import Idealize.ShloMosaic.PureOps.Ideal
import Idealize.ShloMosaic.Lib.ValueIdx

noncomputable section

namespace Cert.PixelIoU

open Idealize.ShloMosaic Idealize.ShloMosaic.ValueIdx

/-- An f32 word as the extended real it denotes. -/
abbrev lit (b : BitVec 32) : EReal := Ideal.ofBits .f32 b

/-- The box arrays, `2048` rows `(cx, cy, w, h, θ)`. -/
abbrev Boxes := (⟨2, ![2048, 5]⟩ : Shape).Idx → EReal
/-- The pixel array, `16384` rows `(gx, gy)`. -/
abbrev Pixels := (⟨2, ![16384, 2]⟩ : Shape).Idx → EReal

/-- `s/2 - |u·p + v·q|`: how far inside the half-extent `s/2` the offset `(u, v)` lies along the direction `(p, q)`. -/
def depth (s u v p q : EReal) : EReal :=
  s * lit 0x3F000000#32 - max (u * p + v * q) (-(u * p + v * q))

/-- `σ(10a)·σ(10b)` as the product of two quotients `1 / (1 + e^{-(10a)})`. -/
def soft (a b : EReal) : EReal :=
  Ideal.div (lit 0x3F800000#32) (lit 0x3F800000#32 + Ideal.exp (-(lit 0x41200000#32 * a)))
    * Ideal.div (lit 0x3F800000#32) (lit 0x3F800000#32 + Ideal.exp (-(lit 0x41200000#32 * b)))

/-- The same as ONE quotient, `1 / ((1 + e^{(-10)a})·(1 + e^{(-10)b}))`. -/
def softK (a b : EReal) : EReal :=
  Ideal.div (lit 0x3F800000#32)
    ((lit 0x3F800000#32 + Ideal.exp (lit 0xC1200000#32 * a)) * (lit 0x3F800000#32 + Ideal.exp (lit 0xC1200000#32 * b)))

/-- Soft membership of pixel `k` in box `n`: the product-of-quotients spelling, `-tx` a negation. -/
def weight (B : Boxes) (G : Pixels) (n : Fin 2048) (k : Fin 16384) : EReal :=
  soft
    (depth (B (ix2 n 2)) (G (ix2 k 0) - B (ix2 n 0)) (G (ix2 k 1) - B (ix2 n 1))
      (Ideal.cos (B (ix2 n 4))) (Ideal.sin (B (ix2 n 4))))
    (depth (B (ix2 n 3)) (-(G (ix2 k 0) - B (ix2 n 0))) (G (ix2 k 1) - B (ix2 n 1))
      (Ideal.sin (B (ix2 n 4))) (Ideal.cos (B (ix2 n 4))))

/-- Soft membership, the one-quotient spelling, `-tx` as `0 - tx`. -/
def weightK (B : Boxes) (G : Pixels) (n : Fin 2048) (k : Fin 16384) : EReal :=
  softK
    (depth (B (ix2 n 2)) (G (ix2 k 0) - B (ix2 n 0)) (G (ix2 k 1) - B (ix2 n 1))
      (Ideal.cos (B (ix2 n 4))) (Ideal.sin (B (ix2 n 4))))
    (depth (B (ix2 n 3)) (lit 0x00000000#32 - (G (ix2 k 0) - B (ix2 n 0))) (G (ix2 k 1) - B (ix2 n 1))
      (Ideal.sin (B (ix2 n 4))) (Ideal.cos (B (ix2 n 4))))

/-- Pixel `q` of tile `j` (tiles of 2048 pixels; total, by reduction mod 16384, and the identity for `j < 8`, `q < 2048`). -/
def pixel (j q : ℕ) : Fin 16384 := ⟨(j * 2048 + q) % 16384, Nat.mod_lt _ (by norm_num)⟩

/-- `Σ Fp·Ft` over tile `j`. -/
def tileInter (P T : Boxes) (G : Pixels) (n : Fin 2048) (j : ℕ) : EReal :=
  ∑ q : Fin 2048, weightK P G n (pixel j q) * weightK T G n (pixel j q)

/-- `Σ (Fp + Ft)` over tile `j`. -/
def tileTotal (P T : Boxes) (G : Pixels) (n : Fin 2048) (j : ℕ) : EReal :=
  ∑ q : Fin 2048, (weightK P G n (pixel j q) + weightK T G n (pixel j q))

/-- The tiled spelling of the result: the tiles' `I` and `S - I` accumulated over the 8 tiles. -/
def iouK (P T : Boxes) (G : Pixels) : (⟨1, ![2048]⟩ : Shape).Idx → EReal := fun i =>
  Ideal.div (∑ j ∈ Finset.range 8, tileInter P T G (i 0) j)
    ((∑ j ∈ Finset.range 8, (tileTotal P T G (i 0) j - tileInter P T G (i 0) j)) + lit 0x3089705F#32)

/-- The whole-array spelling of the result. -/
def iou (P T : Boxes) (G : Pixels) : (⟨1, ![2048]⟩ : Shape).Idx → EReal := fun i =>
  Ideal.div (∑ k : Fin 16384, weight P G (i 0) k * weight T G (i 0) k)
    (((∑ k : Fin 16384, (weight P G (i 0) k + weight T G (i 0) k))
        - ∑ k : Fin 16384, weight P G (i 0) k * weight T G (i 0) k) + lit 0x3089705F#32)

end Cert.PixelIoU

end
-- ==== Proof.RefSide.lean ====
/-
  The reference's value, read off its run one host operation at a time.

  Every stage of the reference is a function of the argument arrays, and its element at an index is given by the
  generated reading lemmas from the elements of its operands. Followed down to the arguments, the membership stage at
  row `n`, column `k` is `weight B G n k` of the specification: the pixel's coordinates are `G (k, 0)`, `G (k, 1)`
  (a column slice, flattened, then repeated along the rows), the box's entries are `B (n, c)` (a column slice repeated
  along the columns), and the arithmetic between them is the specification's, operation for operation. The result is
  then the quotient of the two row sums, whose initial value is the zero word.
-/
import proofs.«138246_j39109972198157_2_alg».proof.Defs
import proofs.«138246_j39109972198157_2_alg».proof.Proof.Gen.ReferenceIdeal.Run
import proofs.«138246_j39109972198157_2_alg».proof.Proof.Gen.ReferenceIdeal.Read
import proofs.«138246_j39109972198157_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.PixelIoU
open Idealize.ShloMosaic Idealize.ShloMosaic.ValueIdx

/-- The box arrays and the pixel array, as the run's argument types. -/
abbrev BoxArr := (⟨S2048x5, .f32⟩ : BufTy).Contents (Elt Ideal)
abbrev PixArr := (⟨S16384x2, .f32⟩ : BufTy).Contents (Elt Ideal)

/-! ## The first box array's half: the leaves at row `n`, column `k`, then the membership stage -/

section first
variable (x0 : BoxArr) (x2 : PixArr) (n : Fin 2048) (k : Fin 16384)

/-- The pixel's first coordinate, repeated along the rows. -/
theorem v8_at : val_main_v8 (F := Ideal) x2 (ix2 n k) = x2 (ix2 k 0) := by
  rw [val_main_v8_apply, val_main_v7_apply, val_main_v6_apply, val_main_v5_apply]
  exact congrArg x2 (funext fun a => Fin.ext (by match a with | ⟨0, _⟩ => exact Nat.div_one _ | ⟨1, _⟩ => rfl))

/-- The pixel's second coordinate, repeated along the rows. -/
theorem v14_at : val_main_v14 (F := Ideal) x2 (ix2 n k) = x2 (ix2 k 1) := by
  rw [val_main_v14_apply, val_main_v13_apply, val_main_v12_apply, val_main_v11_apply]
  exact congrArg x2 (funext fun a => Fin.ext (by match a with | ⟨0, _⟩ => exact Nat.div_one _ | ⟨1, _⟩ => rfl))

/-- The box's centre, first coordinate, repeated along the columns. -/
theorem v9_at : val_main_v9 (F := Ideal) x0 (ix2 n k) = x0 (ix2 n 0) := by
  rw [val_main_v9_apply, val_main_v0_apply]
  exact congrArg x0 (funext fun a => Fin.ext (by match a with | ⟨0, _⟩ => rfl | ⟨1, _⟩ => rfl))

/-- The box's centre, second coordinate, repeated along the columns. -/
theorem v15_at : val_main_v15 (F := Ideal) x0 (ix2 n k) = x0 (ix2 n 1) := by
  rw [val_main_v15_apply, val_main_v1_apply]
  exact congrArg x0 (funext fun a => Fin.ext (by match a with | ⟨0, _⟩ => rfl | ⟨1, _⟩ => rfl))

/-- The cosine of the box's angle, repeated along the columns (first use). -/
theorem v19_at : val_main_v19 (F := Ideal) x0 (ix2 n k) = Ideal.cos (x0 (ix2 n 4)) := by
  rw [val_main_v19_apply, val_main_v17_apply, val_main_v4_apply, Ideal.hostUnary_cos_def]
  exact congrArg (fun j => Ideal.cos (x0 j)) (funext fun a => Fin.ext (by match a with | ⟨0, _⟩ => rfl | ⟨1, _⟩ => rfl))

/-- The sine of the box's angle, repeated along the columns (first use). -/
theorem v21_at : val_main_v21 (F := Ideal) x0 (ix2 n k) = Ideal.sin (x0 (ix2 n 4)) := by
  rw [val_main_v21_apply, val_main_v18_apply, val_main_v4_apply, Ideal.hostUnary_sin_def]
  exact congrArg (fun j => Ideal.sin (x0 j)) (funext fun a => Fin.ext (by match a with | ⟨0, _⟩ => rfl | ⟨1, _⟩ => rfl))

/-- The sine of the box's angle, repeated along the columns (second use). -/
theorem v26_at : val_main_v26 (F := Ideal) x0 (ix2 n k) = Ideal.sin (x0 (ix2 n 4)) := by
  rw [val_main_v26_apply, val_main_v18_apply, val_main_v4_apply, Ideal.hostUnary_sin_def]
  exact congrArg (fun j => Ideal.sin (x0 j)) (funext fun a => Fin.ext (by match a with | ⟨0, _⟩ => rfl | ⟨1, _⟩ => rfl))

/-- The cosine of the box's angle, repeated along the columns (second use). -/
theorem v28_at : val_main_v28 (F := Ideal) x0 (ix2 n k) = Ideal.cos (x0 (ix2 n 4)) := by
  rw [val_main_v28_apply, val_main_v17_apply, val_main_v4_apply, Ideal.hostUnary_cos_def]
  exact congrArg (fun j => Ideal.cos (x0 j)) (funext fun a => Fin.ext (by match a with | ⟨0, _⟩ => rfl | ⟨1, _⟩ => rfl))

/-- Half the box's width, repeated along the columns. -/
theorem v34_at : val_main_v34 (F := Ideal) x0 (ix2 n k) = x0 (ix2 n 2) * lit 0x3F000000#32 := by
  rw [val_main_v34_apply, val_main_v33_apply, val_main_v2_apply, val_main_v32_apply, val_main_cst_apply, Ideal.mulf_def, Ideal.ofBits_def]
  exact congrArg (fun j => x0 j * lit 0x3F000000#32) (funext fun a => Fin.ext (by match a with | ⟨0, _⟩ => rfl | ⟨1, _⟩ => rfl))

/-- Half the box's height, repeated along the columns. -/
theorem v46_at : val_main_v46 (F := Ideal) x0 (ix2 n k) = x0 (ix2 n 3) * lit 0x3F000000#32 := by
  rw [val_main_v46_apply, val_main_v45_apply, val_main_v3_apply, val_main_v44_apply, val_main_cst_3_apply, Ideal.mulf_def, Ideal.ofBits_def]
  exact congrArg (fun j => x0 j * lit 0x3F000000#32) (funext fun a => Fin.ext (by match a with | ⟨0, _⟩ => rfl | ⟨1, _⟩ => rfl))

/-- The membership stage at row `n`, column `k` is the specification's `weight`: the pointwise operations between the
    leaves are the specification's, one for one. -/
theorem v56_at : val_main_v56 (F := Ideal) x0 x2 (ix2 n k) = weight x0 x2 n k := by
  simp only [val_main_v56_apply, val_main_v55_apply, val_main_v53_apply, val_main_v51_apply, val_main_v50_apply, val_main_v49_apply,
    val_main_v47_apply, val_main_v31_apply, val_main_v30_apply, val_main_v29_apply, val_main_v27_apply, val_main_v25_apply,
    val_main_v43_apply, val_main_v41_apply, val_main_v39_apply, val_main_v38_apply, val_main_v37_apply, val_main_v35_apply,
    val_main_v24_apply, val_main_v23_apply, val_main_v22_apply, val_main_v20_apply, val_main_v16_apply, val_main_v10_apply,
    val_main_v54_apply, val_main_v52_apply, val_main_v48_apply, val_main_v42_apply, val_main_v40_apply, val_main_v36_apply,
    val_main_cst_6_apply, val_main_cst_5_apply, val_main_cst_4_apply, val_main_cst_2_apply, val_main_cst_1_apply, val_main_cst_0_apply,
    v8_at, v14_at, v9_at, v15_at, v19_at, v21_at, v26_at, v28_at, v34_at, v46_at,
    Ideal.mulf_def, Ideal.addf_def, Ideal.subf_def, Ideal.hostDivf_def, Ideal.hostNegf_def, Ideal.negf_def,
    Ideal.hostAbsf_def, Ideal.absf_def, Ideal.hostUnary_exp_def, Ideal.ofBits_def]
  rfl

end first

/-! ## The second box array's half: the leaves at row `n`, column `k`, then the membership stage -/

section second
variable (x1 : BoxArr) (x2 : PixArr) (n : Fin 2048) (k : Fin 16384)

/-- The pixel's first coordinate, repeated along the rows. -/
theorem v65_at : val_main_v65 (F := Ideal) x2 (ix2 n k) = x2 (ix2 k 0) := by
  rw [val_main_v65_apply, val_main_v64_apply, val_main_v63_apply, val_main_v62_apply]
  exact congrArg x2 (funext fun a => Fin.ext (by match a with | ⟨0, _⟩ => exact Nat.div_one _ | ⟨1, _⟩ => rfl))

/-- The pixel's second coordinate, repeated along the rows. -/
theorem v71_at : val_main_v71 (F := Ideal) x2 (ix2 n k) = x2 (ix2 k 1) := by
  rw [val_main_v71_apply, val_main_v70_apply, val_main_v69_apply, val_main_v68_apply]
  exact congrArg x2 (funext fun a => Fin.ext (by match a with | ⟨0, _⟩ => exact Nat.div_one _ | ⟨1, _⟩ => rfl))

/-- The box's centre, first coordinate, repeated along the columns. -/
theorem v66_at : val_main_v66 (F := Ideal) x1 (ix2 n k) = x1 (ix2 n 0) := by
  rw [val_main_v66_apply, val_main_v57_apply]
  exact congrArg x1 (funext fun a => Fin.ext (by match a with | ⟨0, _⟩ => rfl | ⟨1, _⟩ => rfl))

/-- The box's centre, second coordinate, repeated along the columns. -/
theorem v72_at : val_main_v72 (F := Ideal) x1 (ix2 n k) = x1 (ix2 n 1) := by
  rw [val_main_v72_apply, val_main_v58_apply]
  exact congrArg x1 (funext fun a => Fin.ext (by match a with | ⟨0, _⟩ => rfl | ⟨1, _⟩ => rfl))

/-- The cosine of the box's angle, repeated along the columns (first use). -/
theorem v76_at : val_main_v76 (F := Ideal) x1 (ix2 n k) = Ideal.cos (x1 (ix2 n 4)) := by
  rw [val_main_v76_apply, val_main_v74_apply, val_main_v61_apply, Ideal.hostUnary_cos_def]
  exact congrArg (fun j => Ideal.cos (x1 j)) (funext fun a => Fin.ext (by match a with | ⟨0, _⟩ => rfl | ⟨1, _⟩ => rfl))

/-- The sine of the box's angle, repeated along the columns (first use). -/
theorem v78_at : val_main_v78 (F := Ideal) x1 (ix2 n k) = Ideal.sin (x1 (ix2 n 4)) := by
  rw [val_main_v78_apply, val_main_v75_apply, val_main_v61_apply, Ideal.hostUnary_sin_def]
  exact congrArg (fun j => Ideal.sin (x1 j)) (funext fun a => Fin.ext (by match a with | ⟨0, _⟩ => rfl | ⟨1, _⟩ => rfl))

/-- The sine of the box's angle, repeated along the columns (second use). -/
theorem v83_at : val_main_v83 (F := Ideal) x1 (ix2 n k) = Ideal.sin (x1 (ix2 n 4)) := by
  rw [val_main_v83_apply, val_main_v75_apply, val_main_v61_apply, Ideal.hostUnary_sin_def]
  exact congrArg (fun j => Ideal.sin (x1 j)) (funext fun a => Fin.ext (by match a with | ⟨0, _⟩ => rfl | ⟨1, _⟩ => rfl))

/-- The cosine of the box's angle, repeated along the columns (second use). -/
theorem v85_at : val_main_v85 (F := Ideal) x1 (ix2 n k) = Ideal.cos (x1 (ix2 n 4)) := by
  rw [val_main_v85_apply, val_main_v74_apply, val_main_v61_apply, Ideal.hostUnary_cos_def]
  exact congrArg (fun j => Ideal.cos (x1 j)) (funext fun a => Fin.ext (by match a with | ⟨0, _⟩ => rfl | ⟨1, _⟩ => rfl))

/-- Half the box's width, repeated along the columns. -/
theorem v91_at : val_main_v91 (F := Ideal) x1 (ix2 n k) = x1 (ix2 n 2) * lit 0x3F000000#32 := by
  rw [val_main_v91_apply, val_main_v90_apply, val_main_v59_apply, val_main_v89_apply, val_main_cst_7_apply, Ideal.mulf_def, Ideal.ofBits_def]
  exact congrArg (fun j => x1 j * lit 0x3F000000#32) (funext fun a => Fin.ext (by match a with | ⟨0, _⟩ => rfl | ⟨1, _⟩ => rfl))

/-- Half the box's height, repeated along the columns. -/
theorem v103_at : val_main_v103 (F := Ideal) x1 (ix2 n k) = x1 (ix2 n 3) * lit 0x3F000000#32 := by
  rw [val_main_v103_apply, val_main_v102_apply, val_main_v60_apply, val_main_v101_apply, val_main_cst_11_apply, Ideal.mulf_def, Ideal.ofBits_def]
  exact congrArg (fun j => x1 j * lit 0x3F000000#32) (funext fun a => Fin.ext (by match a with | ⟨0, _⟩ => rfl | ⟨1, _⟩ => rfl))

/-- The membership stage at row `n`, column `k` is the specification's `weight`: the pointwise operations between the
    leaves are the specification's, one for one. -/
theorem v113_at : val_main_v113 (F := Ideal) x1 x2 (ix2 n k) = weight x1 x2 n k := by
  simp only [val_main_v113_apply, val_main_v112_apply, val_main_v110_apply, val_main_v108_apply, val_main_v107_apply, val_main_v106_apply,
    val_main_v104_apply, val_main_v88_apply, val_main_v87_apply, val_main_v86_apply, val_main_v84_apply, val_main_v82_apply,
    val_main_v100_apply, val_main_v98_apply, val_main_v96_apply, val_main_v95_apply, val_main_v94_apply, val_main_v92_apply,
    val_main_v81_apply, val_main_v80_apply, val_main_v79_apply, val_main_v77_apply, val_main_v73_apply, val_main_v67_apply,
    val_main_v111_apply, val_main_v109_apply, val_main_v105_apply, val_main_v99_apply, val_main_v97_apply, val_main_v93_apply,
    val_main_cst_14_apply, val_main_cst_13_apply, val_main_cst_12_apply, val_main_cst_10_apply, val_main_cst_9_apply, val_main_cst_8_apply,
    v65_at, v71_at, v66_at, v72_at, v76_at, v78_at, v83_at, v85_at, v91_at, v103_at,
    Ideal.mulf_def, Ideal.addf_def, Ideal.subf_def, Ideal.hostDivf_def, Ideal.hostNegf_def, Ideal.negf_def,
    Ideal.hostAbsf_def, Ideal.absf_def, Ideal.hostUnary_exp_def, Ideal.ofBits_def]
  rfl

end second

/-! ## The two row sums and the quotient -/

section result
variable (x0 x1 : BoxArr) (x2 : PixArr) (n : Fin 2048) (k : Fin 16384)

/-- The summand of the first row sum: the product of the two memberships of pixel `k` in row `n`. -/
theorem v114_at : val_main_v114 (F := Ideal) x0 x1 x2 (idx_main_v115 (ix1 n) k)
    = weight x0 x2 n k * weight x1 x2 n k := by
  have e : idx_main_v115 (ix1 n) k = ix2 n k :=
    funext fun a => Fin.ext (by match a with | ⟨0, _⟩ => rfl | ⟨1, _⟩ => rfl)
  rw [e, val_main_v114_apply, v56_at, v113_at, Ideal.mulf_def]

/-- The summand of the second row sum: the sum of the two memberships of pixel `k` in row `n`. -/
theorem v116_at : val_main_v116 (F := Ideal) x0 x1 x2 (idx_main_v117 (ix1 n) k)
    = weight x0 x2 n k + weight x1 x2 n k := by
  have e : idx_main_v117 (ix1 n) k = ix2 n k :=
    funext fun a => Fin.ext (by match a with | ⟨0, _⟩ => rfl | ⟨1, _⟩ => rfl)
  rw [e, val_main_v116_apply, v56_at, v113_at, Ideal.addf_def]

end result

/-- The reference's result is the specification's whole-array quotient `I / ((S - I) + ε)`: each row sum starts from
    the zero word, which denotes `0`, and runs over the 16384 pixels of the row. -/
theorem ref_eq (x0 x1 : (⟨S2048x5, .f32⟩ : BufTy).Contents (Elt Ideal)) (x2 : (⟨S16384x2, .f32⟩ : BufTy).Contents (Elt Ideal)) :
    Cert.ReferenceIdeal.Read.val_main_v121 (F := Ideal) x0 x1 x2 = Cert.PixelIoU.iou x0 x1 x2 := by
  funext i
  obtain ⟨n, rfl⟩ : ∃ n : Fin 2048, i = ix1 n := ⟨i 0, eq_ix1 i⟩
  rw [val_main_v121_apply, val_main_v120_apply, val_main_v118_apply, val_main_v117_apply, val_main_v115_apply,
    val_main_v119_apply, val_main_cst_15_apply, val_main_cst_16_apply, val_main_cst_17_apply,
    Finset.sum_congr rfl (fun k _ => v114_at x0 x1 x2 n k), Finset.sum_congr rfl (fun k _ => v116_at x0 x1 x2 n k),
    Ideal.hostDivf_def, Ideal.addf_def, Ideal.subf_def, Ideal.ofBits_def, Ideal.ofBits_def, Ideal.ofBits_zero_f32,
    zero_add, zero_add]
  rfl

end Cert.ReferenceIdeal.RefValue

end
-- ==== Proof.Algebra.lean ====
/-
  The algebra joining the two spellings of the result (`Spec.lean`): `iouK = iou` at EVERY extended-real input.

  * A soft membership. With `e = exp(-(10a))`, `f = exp(-(10b))` — each `⊤` or a nonnegative real, the exponential
    never being negative — the denominators `1 + e`, `1 + f` lie in `[1, ⊤]`. If one of them is `⊤` so is their product,
    and `1/⊤ = 0` on both sides; if both are reals, `((1+e)(1+f))⁻¹ = (1+e)⁻¹·(1+f)⁻¹` in `ℝ`. So the one quotient
    by the product is the product of the two quotients (`softK_eq`), and the value is a real (`soft_real`).
    `(-10)·a = -(10·a)` and `0 - x = -x` make the arguments agree (`weightK_eq`).
  * The sums. `(j, q) ↦ j·2048 + q` is a bijection of `Fin 8 × Fin 2048` with `Fin 16384`, so the tiles' sums add up
    to the whole array's (`sum_tiles`; valid in any commutative monoid). Every membership being a real, so is every
    tile's `S_j` and `I_j`, and over reals `Σ (S_j - I_j) = Σ S_j - Σ I_j` (`sum_sub_real`; this is the one step that
    fails on `EReal` in general: `⊤ - ⊤ = ⊥`).
  * The two results are then the same quotient of the same numerator by the same denominator.
-/
import proofs.«138246_j39109972198157_2_alg».proof.Proof.Spec
import Mathlib.Algebra.BigOperators.Fin
import Mathlib.Logic.Equiv.Fin.Basic

noncomputable section

namespace Cert.PixelIoU

open Idealize.ShloMosaic Idealize.ShloMosaic.ValueIdx

/-! ### The four constants, as the extended reals their patterns denote -/

theorem lit_one : lit 0x3F800000#32 = 1 := by
  simp [Ideal.ofBits, Ideal.ieee, -EReal.coe_mul]; norm_num

theorem lit_ten : lit 0x41200000#32 = ((10 : ℝ) : EReal) := by
  simp [Ideal.ofBits, Ideal.ieee, -EReal.coe_mul]; norm_num

theorem lit_neg_ten : lit 0xC1200000#32 = ((-10 : ℝ) : EReal) := by
  simp [Ideal.ofBits, Ideal.ieee, -EReal.coe_mul]; norm_num

theorem lit_zero : lit 0x00000000#32 = 0 := by
  simp [Ideal.ofBits, Ideal.ieee]

/-! ### One membership -/

/-- The exponential is never negative: it is `⊤` or a nonnegative real. -/
theorem exp_top_or_real (x : EReal) :
    Ideal.exp x = ⊤ ∨ ∃ r : ℝ, 0 ≤ r ∧ Ideal.exp x = ((r : ℝ) : EReal) := by
  induction x using EReal.rec with
  | bot => exact Or.inr ⟨0, le_rfl, by rw [Ideal.exp_bot, EReal.coe_zero]⟩
  | coe r => exact Or.inr ⟨Real.exp r, (Real.exp_pos r).le, Ideal.exp_coe r⟩
  | top => exact Or.inl Ideal.exp_top

/-- `1 / ⊤ = 0`. -/
theorem div_one_top : Ideal.div 1 (⊤ : EReal) = 0 := by
  rw [Ideal.div, if_neg EReal.top_ne_zero, EReal.inv_top, mul_zero]

/-- `1 / t` for a positive real `t` is the real `t⁻¹`. -/
theorem div_one_pos (t : ℝ) (ht : 0 < t) : Ideal.div 1 ((t : ℝ) : EReal) = ((t⁻¹ : ℝ) : EReal) := by
  have hne : ((t : ℝ) : EReal) ≠ 0 := by exact_mod_cast ht.ne'
  rw [Ideal.div, if_neg hne, one_mul, ← EReal.coe_inv]

theorem one_add_coe (r : ℝ) : (1 : EReal) + ((r : ℝ) : EReal) = ((1 + r : ℝ) : EReal) := by
  rw [EReal.coe_add, EReal.coe_one]

theorem one_add_top : (1 : EReal) + ⊤ = ⊤ :=
  EReal.add_top_of_ne_bot (EReal.coe_ne_bot 1)

/-- For `e, f` each `⊤` or a nonnegative real, the reciprocal of `(1 + e)·(1 + f)` is the product of the two
    reciprocals, and that product is a real. -/
theorem quot_mul (e f : EReal)
    (he : e = ⊤ ∨ ∃ r : ℝ, 0 ≤ r ∧ e = ((r : ℝ) : EReal))
    (hf : f = ⊤ ∨ ∃ r : ℝ, 0 ≤ r ∧ f = ((r : ℝ) : EReal)) :
    Ideal.div 1 ((1 + e) * (1 + f)) = Ideal.div 1 (1 + e) * Ideal.div 1 (1 + f)
      ∧ ∃ t : ℝ, Ideal.div 1 (1 + e) * Ideal.div 1 (1 + f) = ((t : ℝ) : EReal) := by
  rcases he with rfl | ⟨r, hr, rfl⟩ <;> rcases hf with rfl | ⟨s, hs, rfl⟩
  · rw [one_add_top, EReal.top_mul_top, div_one_top, mul_zero]
    exact ⟨rfl, 0, EReal.coe_zero.symm⟩
  · have hs' : (0 : ℝ) < 1 + s := by linarith
    rw [one_add_top, one_add_coe, EReal.top_mul_coe_of_pos hs', div_one_top, zero_mul]
    exact ⟨rfl, 0, EReal.coe_zero.symm⟩
  · have hr' : (0 : ℝ) < 1 + r := by linarith
    rw [one_add_top, one_add_coe, EReal.coe_mul_top_of_pos hr', div_one_top, mul_zero]
    exact ⟨rfl, 0, EReal.coe_zero.symm⟩
  · have hr' : (0 : ℝ) < 1 + r := by linarith
    have hs' : (0 : ℝ) < 1 + s := by linarith
    rw [one_add_coe, one_add_coe, ← EReal.coe_mul, div_one_pos _ (mul_pos hr' hs'), div_one_pos _ hr',
      div_one_pos _ hs', ← EReal.coe_mul, mul_inv]
    exact ⟨rfl, _, rfl⟩

/-- `(-10)·a = -(10·a)`. -/
theorem neg_ten_mul (a : EReal) : ((-10 : ℝ) : EReal) * a = -(((10 : ℝ) : EReal) * a) := by
  rw [EReal.coe_neg, neg_mul]

/-- One quotient by the product of the denominators is the product of the two quotients. -/
theorem softK_eq (a b : EReal) : softK a b = soft a b := by
  unfold softK soft
  rw [lit_one, lit_neg_ten, lit_ten, neg_ten_mul, neg_ten_mul]
  exact (quot_mul _ _ (exp_top_or_real _) (exp_top_or_real _)).1

/-- A soft membership is a real. -/
theorem soft_real (a b : EReal) : ∃ t : ℝ, soft a b = ((t : ℝ) : EReal) := by
  unfold soft
  rw [lit_one, lit_ten]
  exact (quot_mul _ _ (exp_top_or_real _) (exp_top_or_real _)).2

theorem weightK_eq (B : Boxes) (G : Pixels) (n : Fin 2048) (k : Fin 16384) :
    weightK B G n k = weight B G n k := by
  unfold weightK weight
  rw [softK_eq, lit_zero, zero_sub]

theorem weight_real (B : Boxes) (G : Pixels) (n : Fin 2048) (k : Fin 16384) :
    ∃ r : ℝ, weight B G n k = ((r : ℝ) : EReal) := by
  unfold weight
  exact soft_real _ _

/-! ### The sums -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s ?_ ?_
  · rw [Finset.sum_empty, Finset.sum_empty, EReal.coe_zero]
  · intro a s ha ih
    rw [Finset.sum_insert ha, Finset.sum_insert ha, EReal.coe_add, ih]

/-- A finite sum of reals is a real. -/
theorem sum_real {ι : Type*} (s : Finset ι) (f : ι → EReal) (h : ∀ i, ∃ r : ℝ, f i = ((r : ℝ) : EReal)) :
    ∃ r : ℝ, ∑ i ∈ s, f i = ((r : ℝ) : EReal) := by
  choose x hx using h
  exact ⟨∑ i ∈ s, x i, by simp only [hx, coe_sum]⟩

/-- Over reals, the sum of the differences is the difference of the sums (false on `EReal` in general). -/
theorem sum_sub_real {ι : Type*} (s : Finset ι) (a b : ι → EReal)
    (ha : ∀ i, ∃ r : ℝ, a i = ((r : ℝ) : EReal)) (hb : ∀ i, ∃ r : ℝ, b i = ((r : ℝ) : EReal)) :
    ∑ i ∈ s, (a i - b i) = (∑ i ∈ s, a i) - ∑ i ∈ s, b i := by
  choose x hx using ha
  choose y hy using hb
  simp only [hx, hy, ← EReal.coe_sub, ← coe_sum, Finset.sum_sub_distrib]

/-- The 8 tiles of 2048 pixels enumerate the 16384 pixels once each. -/
theorem sum_tiles (F : Fin 16384 → EReal) :
    ∑ j ∈ Finset.range 8, ∑ q : Fin 2048, F (pixel j q) = ∑ k : Fin 16384, F k := by
  rw [Finset.sum_range (fun j => ∑ q : Fin 2048, F (pixel j q)),
    ← Fintype.sum_prod_type' (fun (j : Fin 8) (q : Fin 2048) => F (pixel j q))]
  refine Fintype.sum_equiv (finProdFinEquiv (m := 8) (n := 2048)) _ _ ?_
  rintro ⟨j, q⟩
  refine congrArg F (Fin.ext ?_)
  have hj := j.isLt
  have hq := q.isLt
  simp only [pixel, finProdFinEquiv_apply_val]
  omega

theorem tileInter_real (P T : Boxes) (G : Pixels) (n : Fin 2048) (j : ℕ) :
    ∃ r : ℝ, tileInter P T G n j = ((r : ℝ) : EReal) := by
  unfold tileInter
  refine sum_real _ _ (fun q => ?_)
  obtain ⟨x, hx⟩ := weight_real P G n (pixel j q)
  obtain ⟨y, hy⟩ := weight_real T G n (pixel j q)
  exact ⟨x * y, by rw [weightK_eq, weightK_eq, hx, hy, EReal.coe_mul]⟩

theorem tileTotal_real (P T : Boxes) (G : Pixels) (n : Fin 2048) (j : ℕ) :
    ∃ r : ℝ, tileTotal P T G n j = ((r : ℝ) : EReal) := by
  unfold tileTotal
  refine sum_real _ _ (fun q => ?_)
  obtain ⟨x, hx⟩ := weight_real P G n (pixel j q)
  obtain ⟨y, hy⟩ := weight_real T G n (pixel j q)
  exact ⟨x + y, by rw [weightK_eq, weightK_eq, hx, hy, EReal.coe_add]⟩

/-- The tiles' `Σ Fp·Ft` add up to the whole array's. -/
theorem sum_tileInter (P T : Boxes) (G : Pixels) (n : Fin 2048) :
    ∑ j ∈ Finset.range 8, tileInter P T G n j = ∑ k : Fin 16384, weight P G n k * weight T G n k := by
  simp only [tileInter, weightK_eq]
  exact sum_tiles (fun k => weight P G n k * weight T G n k)

/-- The tiles' `Σ (Fp + Ft)` add up to the whole array's. -/
theorem sum_tileTotal (P T : Boxes) (G : Pixels) (n : Fin 2048) :
    ∑ j ∈ Finset.range 8, tileTotal P T G n j = ∑ k : Fin 16384, (weight P G n k + weight T G n k) := by
  simp only [tileTotal, weightK_eq]
  exact sum_tiles (fun k => weight P G n k + weight T G n k)

/-- Row `n` of the result, in the two spellings. -/
theorem iouK_row (P T : Boxes) (G : Pixels) (n : Fin 2048) :
    Ideal.div (∑ j ∈ Finset.range 8, tileInter P T G n j)
        ((∑ j ∈ Finset.range 8, (tileTotal P T G n j - tileInter P T G n j)) + lit 0x3089705F#32)
      = Ideal.div (∑ k : Fin 16384, weight P G n k * weight T G n k)
        (((∑ k : Fin 16384, (weight P G n k + weight T G n k))
            - ∑ k : Fin 16384, weight P G n k * weight T G n k) + lit 0x3089705F#32) := by
  rw [sum_sub_real _ _ _ (tileTotal_real P T G n) (tileInter_real P T G n), sum_tileTotal, sum_tileInter]

/-- The tiled spelling and the whole-array spelling denote the same extended real, at every input. -/
theorem iouK_eq (P T : Boxes) (G : Pixels) : iouK P T G = iou P T G := by
  funext i
  exact iouK_row P T G (i 0)

end Cert.PixelIoU

end
-- ==== Proof.KPieces.lean ====
/-
  What one grid point does, as values. A point holds a block of 256 boxes from each box array (`x0`, `x1`: columns
  cx, cy, w, h, θ) and a block of 2048 pixels (`x2`: row 0 the gx, row 1 the gy). From them the body forms the two
  256×2048 membership tiles, their row sums `I` (of the products) and `S` (of the sums), and adds `I` and `S - I`
  into two carried 256×1 accumulators; the first point of a row of the grid starts the accumulators from zero, the
  last one also stores the quotient `acc_I / (acc_U + ε)`.
  Here: names for those values over the body's pure payloads, and, for each of the three control cases, that what the
  case leaves in each accumulator (and in the output block) is that value.
-/
import proofs.«138246_j39109972198157_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The membership tile of the first box block: the one-quotient form over the block's columns and the pixel rows. -/
def membP (x0 : Vec F S256x5 .f32) (x2 : Vec F S2x2048 .f32) : FVec F S256x2048 .f32 :=
  k0_pay12 (View.ld x0 (Rect.unit ![0, 3] ![256, 1] inb_S256x5_S256x1_0_3))
    (k0_pay10 (View.ld x2 (Rect.unit ![0, 0] ![1, 2048] inb_S2x2048_S1x2048_0_0)) (View.ld x2 (Rect.unit ![1, 0] ![1, 2048] inb_S2x2048_S1x2048_1_0)) (View.ld x0 (Rect.unit ![0, 0] ![256, 1] inb_S256x5_S256x1_0_0)) (View.ld x0 (Rect.unit ![0, 1] ![256, 1] inb_S256x5_S256x1_0_1)) (View.ld x0 (Rect.unit ![0, 4] ![256, 1] inb_S256x5_S256x1_0_4)))
    (k0_pay11 (View.ld x2 (Rect.unit ![0, 0] ![1, 2048] inb_S2x2048_S1x2048_0_0)) (View.ld x2 (Rect.unit ![1, 0] ![1, 2048] inb_S2x2048_S1x2048_1_0)) (View.ld x0 (Rect.unit ![0, 0] ![256, 1] inb_S256x5_S256x1_0_0)) (View.ld x0 (Rect.unit ![0, 1] ![256, 1] inb_S256x5_S256x1_0_1)) (View.ld x0 (Rect.unit ![0, 2] ![256, 1] inb_S256x5_S256x1_0_2)) (View.ld x0 (Rect.unit ![0, 4] ![256, 1] inb_S256x5_S256x1_0_4)))
    (FloatOps.ofBits .f32 0xC1200000#32)

/-- The absolute offsets of the pixels along the second box block's two axes. -/
def alongW (x1 : Vec F S256x5 .f32) (x2 : Vec F S2x2048 .f32) : FVec F S256x2048 .f32 :=
  k0_pay17 (k0_pay4 (View.ld x2 (Rect.unit ![0, 0] ![1, 2048] inb_S2x2048_S1x2048_0_0))) (k0_pay5 (View.ld x2 (Rect.unit ![1, 0] ![1, 2048] inb_S2x2048_S1x2048_1_0))) (View.ld x1 (Rect.unit ![0, 0] ![256, 1] inb_S256x5_S256x1_0_0)) (View.ld x1 (Rect.unit ![0, 1] ![256, 1] inb_S256x5_S256x1_0_1)) (View.ld x1 (Rect.unit ![0, 4] ![256, 1] inb_S256x5_S256x1_0_4))
def alongH (x1 : Vec F S256x5 .f32) (x2 : Vec F S2x2048 .f32) : FVec F S256x2048 .f32 :=
  k0_pay18 (k0_pay4 (View.ld x2 (Rect.unit ![0, 0] ![1, 2048] inb_S2x2048_S1x2048_0_0))) (k0_pay5 (View.ld x2 (Rect.unit ![1, 0] ![1, 2048] inb_S2x2048_S1x2048_1_0))) (View.ld x1 (Rect.unit ![0, 0] ![256, 1] inb_S256x5_S256x1_0_0)) (View.ld x1 (Rect.unit ![0, 1] ![256, 1] inb_S256x5_S256x1_0_1)) (View.ld x1 (Rect.unit ![0, 4] ![256, 1] inb_S256x5_S256x1_0_4))

/-- The carried sum of products after this point: what it held plus the tile's row sums of `Fp·Ft`. -/
def accInter (x0 x1 : Vec F S256x5 .f32) (x2 : Vec F S2x2048 .f32) (xs0 : Vec F S256x1 .f32) : FVec F S256x1 .f32 :=
  k0_pay21 (membP x0 x2) (View.ld x1 (Rect.unit ![0, 2] ![256, 1] inb_S256x5_S256x1_0_2)) (View.ld x1 (Rect.unit ![0, 3] ![256, 1] inb_S256x5_S256x1_0_3)) (alongW x1 x2) (alongH x1 x2) xs0

/-- The carried `S - I` after this point: what it held plus the tile's row sums of `Fp + Ft` less those of `Fp·Ft`. -/
def accUnion (x0 x1 : Vec F S256x5 .f32) (x2 : Vec F S2x2048 .f32) (xs1 : Vec F S256x1 .f32) : FVec F S256x1 .f32 :=
  k0_pay22 (membP x0 x2) (View.ld x1 (Rect.unit ![0, 2] ![256, 1] inb_S256x5_S256x1_0_2)) (View.ld x1 (Rect.unit ![0, 3] ![256, 1] inb_S256x5_S256x1_0_3)) (alongW x1 x2) (alongH x1 x2) xs1

/-- A middle point of a grid row: each accumulator gains its tile term. -/
theorem sout_B_0 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 x1 : Vec F S256x5 .f32) (x2 : Vec F S2x2048 .f32) (xs0 xs1 : Vec F S256x1 .f32) :
    sout0_B_0 c i arg2 harg2 arg3 harg3 arg4 harg4 arg5 harg5 arg6 harg6 arg7 harg7 hc0 hc1 x0 x1 x2 xs0 xs1 = accInter x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S256x1) hz]
  rfl

theorem sout_B_1 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i)
    (x0 x1 : Vec F S256x5 .f32) (x2 : Vec F S2x2048 .f32) (xs0 xs1 : Vec F S256x1 .f32) :
    sout0_B_1 c i arg2 harg2 arg3 harg3 arg4 harg4 arg5 harg5 arg6 harg6 arg7 harg7 hc0 hc1 x0 x1 x2 xs0 xs1 = accUnion x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S256x1) hz]
  rfl

/-- The first point of a grid row: the accumulators start from the zero block the body has just stored. -/
theorem sout_A_0 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 x1 : Vec F S256x5 .f32) (x2 : Vec F S2x2048 .f32) :
    sout0_A_0 c i arg2 harg2 arg3 harg3 arg4 harg4 arg5 harg5 arg6 harg6 arg7 harg7 hc0 hc1 x0 x1 x2 = accInter x0 x1 x2 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread, harg7.read_unread, View.ld_unit_zero (S := S256x1) hz]
  rfl

theorem sout_A_1 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i)
    (x0 x1 : Vec F S256x5 .f32) (x2 : Vec F S2x2048 .f32) :
    sout0_A_1 c i arg2 harg2 arg3 harg3 arg4 harg4 arg5 harg5 arg6 harg6 arg7 harg7 hc0 hc1 x0 x1 x2 = accUnion x0 x1 x2 k0_pay3 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz, View.readCov_unit_zero (S := S256x1) _ hz]
  simp only [View.readAt_eq_ld, harg2.read_unread, harg3.read_unread, harg4.read_unread, harg6.read_unread, harg7.read_unread, View.ld_unit_zero (S := S256x1) hz]
  rfl

/-- The last point of a grid row: the accumulators gain their tile terms, and the output block is the quotient of what they then hold. -/
theorem sout_C_0 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 x1 : Vec F S256x5 .f32) (x2 : Vec F S2x2048 .f32) (xs0 xs1 : Vec F S256x1 .f32) :
    sout0_C_0 c i arg2 harg2 arg3 harg3 arg4 harg4 arg5 harg5 arg6 harg6 arg7 harg7 hc0 hc1 x0 x1 x2 xs0 xs1 = accInter x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S256x1) hz]
  rfl

theorem sout_C_1 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 x1 : Vec F S256x5 .f32) (x2 : Vec F S2x2048 .f32) (xs0 xs1 : Vec F S256x1 .f32) :
    sout0_C_1 c i arg2 harg2 arg3 harg3 arg4 harg4 arg5 harg5 arg6 harg6 arg7 harg7 hc0 hc1 x0 x1 x2 xs0 xs1 = accUnion x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S256x1) hz]
  rfl

theorem out_C_3 (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x2048 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i)
    (x0 x1 : Vec F S256x5 .f32) (x2 : Vec F S2x2048 .f32) (xs0 xs1 : Vec F S256x1 .f32) :
    out0_C_3 c i arg2 harg2 arg3 harg3 arg4 harg4 arg5 harg5 arg6 harg6 arg7 harg7 hc0 hc1 x0 x1 x2 xs0 xs1 = k0_pay1 (accInter x0 x1 x2 xs0) (accUnion x0 x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S256x1) _ hz, View.readCov_unit_zero (S := S256x1) _ hz]
  simp only [View.readAt_eq_ld, harg2.read_unread, harg3.read_unread, harg4.read_unread, harg6.read_unread, harg7.read_unread, View.ld_unit_zero (S := S256x1) hz]
  rfl

end Cert.KernelIdeal.KValue

end
-- ==== Proof.KTile.lean ====
/-
  One grid point's values read at an index, over the extended reals.

  With `x0`, `x1` the point's two blocks of 256 boxes and `x2` its block of 2048 pixels (row 0 the gx, row 1 the gy),
  the membership tiles at (box row `r`, pixel `q`) are the one-quotient membership `wK` of the box row's five numbers and
  the pixel's two; the tile terms are sums over the 2048 pixels of the tile; the accumulators gain them; the output
  block is the quotient of the accumulators, the second one shifted by ε.
-/
import proofs.«138246_j39109972198157_2_alg».proof.Proof.KPieces
import proofs.«138246_j39109972198157_2_alg».proof.Proof.Spec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.PixelIoU

/-- The one-quotient membership of a pixel `(gx, gy)` in a box `(cx, cy, w, h, θ)`. -/
def wK (cx cy w h th gx gy : EReal) : EReal :=
  softK (depth w (gx - cx) (gy - cy) (Ideal.cos th) (Ideal.sin th))
    (depth h (lit 0x00000000#32 - (gx - cx)) (gy - cy) (Ideal.sin th) (Ideal.cos th))

/-- It is the specification's, at the arrays' rows. -/
theorem weightK_eq_wK (B : Boxes) (G : Pixels) (n : Fin 2048) (k : Fin 16384) :
    weightK B G n k = wK (B (ix2 n 0)) (B (ix2 n 1)) (B (ix2 n 2)) (B (ix2 n 3)) (B (ix2 n 4)) (G (ix2 k 0)) (G (ix2 k 1)) := rfl

/-! ### The layout steps at an index -/

/-- Column `o` of a box block, at row `r`. -/
theorem ld_col (x : Vec Ideal S256x5 .f32) (o : Nat) (inb : ∀ a, (![0, o] : Fin 2 → Nat) a + (![256, 1] : Fin 2 → Nat) a ≤ S256x5.size a)
    (r : Fin 256) (k : Fin 5) (hk : k.val = o) :
    View.ld x (Rect.unit (s := S256x5) ![0, o] ![256, 1] inb) (ix2 r (0 : Fin 1)) = x (ix2 r k) := by
  show x ((Rect.unit (s := S256x5) ![0, o] ![256, 1] inb).emb (ix2 r (0 : Fin 1))) = _
  refine congrArg x (funext fun a => Fin.ext ?_)
  match a with
  | ⟨0, _⟩ => show 0 + 1 * r.val = r.val; omega
  | ⟨1, _⟩ => show o + 1 * 0 = k.val; omega

/-- Row `o` of a pixel block, at pixel `q`. -/
theorem ld_row (x : Vec Ideal S2x2048 .f32) (o : Nat) (inb : ∀ a, (![o, 0] : Fin 2 → Nat) a + (![1, 2048] : Fin 2 → Nat) a ≤ S2x2048.size a)
    (q : Fin 2048) (k : Fin 2) (hk : k.val = o) :
    View.ld x (Rect.unit (s := S2x2048) ![o, 0] ![1, 2048] inb) (ix2 (0 : Fin 1) q) = x (ix2 k q) := by
  show x ((Rect.unit (s := S2x2048) ![o, 0] ![1, 2048] inb).emb (ix2 (0 : Fin 1) q)) = _
  refine congrArg x (funext fun a => Fin.ext ?_)
  match a with
  | ⟨0, _⟩ => show o + 1 * 0 = k.val; omega
  | ⟨1, _⟩ => show 0 + 1 * q.val = q.val; omega

/-- A pixel row spread over the 256 box rows. -/
theorem bcast_row (v : FVec Ideal S1x2048 .f32) (r : Fin 256) (q : Fin 2048) :
    broadcastTo S256x2048 v broadcasts_S1x2048_S256x2048 (ix2 r q) = v (ix2 (0 : Fin 1) q) :=
  broadcastTo_apply v _ (ix2 r q) (ix2 (0 : Fin 1) q) (fun a => by
    match a with
    | ⟨0, _⟩ => rfl
    | ⟨1, _⟩ => rfl)

/-- A box column spread over the 2048 pixels. -/
theorem bcast_col (v : FVec Ideal S256x1 .f32) (r : Fin 256) (q : Fin 2048) :
    broadcastTo S256x2048 v broadcasts_S256x1_S256x2048 (ix2 r q) = v (ix2 r (0 : Fin 1)) :=
  broadcastTo_apply v _ (ix2 r q) (ix2 r (0 : Fin 1)) (fun a => by
    match a with
    | ⟨0, _⟩ => rfl
    | ⟨1, _⟩ => rfl)

/-- The sum along the pixels of a 256×2048 tile, kept as a 256×1 column: at row `r` the sum over the 2048 pixels. -/
theorem rowsum_apply (src : FVec Ideal S256x2048 .f32) (hφ : FKind.Formats .f32)
    (hacc : (0x00000000#32 : BitVec 32) = FKind.add.neutral .f32 hφ) (r : Fin 256) :
    shapeCast S256x1 (multiReduction .add [1] S256 src 0x00000000#32 reduces_S256x2048_S256 hφ hacc) shapeCasts_S256_S256x1
      (ix2 r (0 : Fin 1)) = ∑ q : Fin 2048, src (ix2 r q) := by
  refine (shapeCast_apply _ shapeCasts_S256_S256x1 (ix2 r (0 : Fin 1)) (ix1 r) ?_).trans ?_
  · rw [Shape.rowMajor_val_one, Shape.rowMajor_val_two]
    show r.val = r.val * 1 + 0
    omega
  · refine (Ideal.multiReduction_add_single src 0x00000000#32 reduces_S256x2048_S256 hφ hacc (ix1 r)).trans ?_
    refine Finset.sum_congr rfl fun q _ => congrArg src (funext fun a => Fin.ext ?_)
    match a with
    | ⟨0, _⟩ => rfl
    | ⟨1, _⟩ => rfl

/-! ### The membership tiles -/

theorem membP_apply (x0 : Vec Ideal S256x5 .f32) (x2 : Vec Ideal S2x2048 .f32) (r : Fin 256) (q : Fin 2048) :
    membP (F := Ideal) x0 x2 (ix2 r q)
      = wK (x0 (ix2 r 0)) (x0 (ix2 r 1)) (x0 (ix2 r 2)) (x0 (ix2 r 3)) (x0 (ix2 r 4)) (x2 (ix2 0 q)) (x2 (ix2 1 q)) := by
  unfold membP k0_pay12 k0_pay10 k0_pay11 k0_pay6 k0_pay7 k0_pay8 k0_pay9 k0_pay4 k0_pay5
  simp only [mulf, addf, subf, divf, absf, exp, cos, sin, broadcast, bcast_row, bcast_col, shapeCast_self,
    ld_col x0 0 _ r 0 rfl, ld_col x0 1 _ r 1 rfl, ld_col x0 2 _ r 2 rfl, ld_col x0 3 _ r 3 rfl, ld_col x0 4 _ r 4 rfl,
    ld_row x2 0 _ q 0 rfl, ld_row x2 1 _ q 1 rfl]
  rfl

theorem membT_apply (x1 : Vec Ideal S256x5 .f32) (x2 : Vec Ideal S2x2048 .f32) (r : Fin 256) (q : Fin 2048) :
    k0_pay19 (F := Ideal) (View.ld x1 (Rect.unit ![0, 2] ![256, 1] inb_S256x5_S256x1_0_2)) (View.ld x1 (Rect.unit ![0, 3] ![256, 1] inb_S256x5_S256x1_0_3)) (alongW x1 x2) (alongH x1 x2) (ix2 r q)
      = wK (x1 (ix2 r 0)) (x1 (ix2 r 1)) (x1 (ix2 r 2)) (x1 (ix2 r 3)) (x1 (ix2 r 4)) (x2 (ix2 0 q)) (x2 (ix2 1 q)) := by
  unfold k0_pay19 alongW alongH k0_pay17 k0_pay18 k0_pay13 k0_pay14 k0_pay15 k0_pay16 k0_pay4 k0_pay5
  simp only [mulf, addf, subf, divf, absf, exp, cos, sin, broadcast, bcast_row, bcast_col, shapeCast_self,
    ld_col x1 0 _ r 0 rfl, ld_col x1 1 _ r 1 rfl, ld_col x1 2 _ r 2 rfl, ld_col x1 3 _ r 3 rfl, ld_col x1 4 _ r 4 rfl,
    ld_row x2 0 _ q 0 rfl, ld_row x2 1 _ q 1 rfl]
  rfl

/-! ### The accumulators and the output block -/

/-- The tile's row sum of the products of the two memberships, at box row `r`. -/
def tileI (x0 x1 : Vec Ideal S256x5 .f32) (x2 : Vec Ideal S2x2048 .f32) (r : Fin 256) : EReal :=
  ∑ q : Fin 2048,
    wK (x0 (ix2 r 0)) (x0 (ix2 r 1)) (x0 (ix2 r 2)) (x0 (ix2 r 3)) (x0 (ix2 r 4)) (x2 (ix2 0 q)) (x2 (ix2 1 q))
      * wK (x1 (ix2 r 0)) (x1 (ix2 r 1)) (x1 (ix2 r 2)) (x1 (ix2 r 3)) (x1 (ix2 r 4)) (x2 (ix2 0 q)) (x2 (ix2 1 q))

/-- The tile's row sum of the sums of the two memberships, at box row `r`. -/
def tileS (x0 x1 : Vec Ideal S256x5 .f32) (x2 : Vec Ideal S2x2048 .f32) (r : Fin 256) : EReal :=
  ∑ q : Fin 2048,
    (wK (x0 (ix2 r 0)) (x0 (ix2 r 1)) (x0 (ix2 r 2)) (x0 (ix2 r 3)) (x0 (ix2 r 4)) (x2 (ix2 0 q)) (x2 (ix2 1 q))
      + wK (x1 (ix2 r 0)) (x1 (ix2 r 1)) (x1 (ix2 r 2)) (x1 (ix2 r 3)) (x1 (ix2 r 4)) (x2 (ix2 0 q)) (x2 (ix2 1 q)))

/-- The row sums of the tile of products and of the tile of sums. -/
theorem rowsum_mul (x0 x1 : Vec Ideal S256x5 .f32) (x2 : Vec Ideal S2x2048 .f32) (hφ : FKind.Formats .f32)
    (hacc : (0x00000000#32 : BitVec 32) = FKind.add.neutral .f32 hφ) (r : Fin 256) :
    shapeCast S256x1 (multiReduction .add [1] S256 (mulf (membP (F := Ideal) x0 x2) (k0_pay19 (F := Ideal) (View.ld x1 (Rect.unit ![0, 2] ![256, 1] inb_S256x5_S256x1_0_2)) (View.ld x1 (Rect.unit ![0, 3] ![256, 1] inb_S256x5_S256x1_0_3)) (alongW x1 x2) (alongH x1 x2))) 0x00000000#32
      reduces_S256x2048_S256 hφ hacc) shapeCasts_S256_S256x1 (ix2 r (0 : Fin 1)) = tileI x0 x1 x2 r :=
  (rowsum_apply _ hφ hacc r).trans (Finset.sum_congr rfl fun q _ => by
    show membP (F := Ideal) x0 x2 (ix2 r q) * (k0_pay19 (F := Ideal) (View.ld x1 (Rect.unit ![0, 2] ![256, 1] inb_S256x5_S256x1_0_2)) (View.ld x1 (Rect.unit ![0, 3] ![256, 1] inb_S256x5_S256x1_0_3)) (alongW x1 x2) (alongH x1 x2)) (ix2 r q) = _
    rw [membP_apply, membT_apply])

theorem rowsum_add (x0 x1 : Vec Ideal S256x5 .f32) (x2 : Vec Ideal S2x2048 .f32) (hφ : FKind.Formats .f32)
    (hacc : (0x00000000#32 : BitVec 32) = FKind.add.neutral .f32 hφ) (r : Fin 256) :
    shapeCast S256x1 (multiReduction .add [1] S256 (addf (membP (F := Ideal) x0 x2) (k0_pay19 (F := Ideal) (View.ld x1 (Rect.unit ![0, 2] ![256, 1] inb_S256x5_S256x1_0_2)) (View.ld x1 (Rect.unit ![0, 3] ![256, 1] inb_S256x5_S256x1_0_3)) (alongW x1 x2) (alongH x1 x2))) 0x00000000#32
      reduces_S256x2048_S256 hφ hacc) shapeCasts_S256_S256x1 (ix2 r (0 : Fin 1)) = tileS x0 x1 x2 r :=
  (rowsum_apply _ hφ hacc r).trans (Finset.sum_congr rfl fun q _ => by
    show membP (F := Ideal) x0 x2 (ix2 r q) + (k0_pay19 (F := Ideal) (View.ld x1 (Rect.unit ![0, 2] ![256, 1] inb_S256x5_S256x1_0_2)) (View.ld x1 (Rect.unit ![0, 3] ![256, 1] inb_S256x5_S256x1_0_3)) (alongW x1 x2) (alongH x1 x2)) (ix2 r q) = _
    rw [membP_apply, membT_apply])

theorem accInter_apply (x0 x1 : Vec Ideal S256x5 .f32) (x2 : Vec Ideal S2x2048 .f32) (xs0 : Vec Ideal S256x1 .f32) (r : Fin 256) :
    accInter (F := Ideal) x0 x1 x2 xs0 (ix2 r (0 : Fin 1)) = xs0 (ix2 r (0 : Fin 1)) + tileI x0 x1 x2 r := by
  unfold accInter k0_pay21 k0_pay20
  simp only [addf, shapeCast_self, Ideal.addf_def]
  exact congrArg (xs0 (ix2 r (0 : Fin 1)) + ·) (rowsum_mul x0 x1 x2 _ _ r)

theorem accUnion_apply (x0 x1 : Vec Ideal S256x5 .f32) (x2 : Vec Ideal S2x2048 .f32) (xs1 : Vec Ideal S256x1 .f32) (r : Fin 256) :
    accUnion (F := Ideal) x0 x1 x2 xs1 (ix2 r (0 : Fin 1))
      = xs1 (ix2 r (0 : Fin 1)) + (tileS x0 x1 x2 r - tileI x0 x1 x2 r) := by
  unfold accUnion k0_pay22 k0_pay20
  simp only [addf, subf, shapeCast_self, Ideal.addf_def, Ideal.subf_def]
  exact congrArg (xs1 (ix2 r (0 : Fin 1)) + ·) (congrArg₂ (· - ·) (rowsum_add x0 x1 x2 _ _ r) (rowsum_mul x0 x1 x2 _ _ r))

/-- The output block: the quotient of the two accumulators, the second shifted by ε. -/
theorem ratio_apply (s0 s1 : Vec Ideal S256x1 .f32) (y : S256x1.Idx) :
    k0_pay1 (F := Ideal) s0 s1 y = Ideal.div (s0 y) (s1 y + lit 0x3089705F#32) := rfl

/-- The zero blocks the first point of a grid row stores. -/
theorem zero2_apply (y : S256x1.Idx) : k0_pay2 (F := Ideal) y = lit 0x00000000#32 := by
  unfold k0_pay2; simp only [shapeCast_self]; rfl
theorem zero3_apply (y : S256x1.Idx) : k0_pay3 (F := Ideal) y = lit 0x00000000#32 := by
  unfold k0_pay3; simp only [shapeCast_self]; rfl

end Cert.KernelIdeal.KValue

end
-- ==== Proof.KAccum.lean ====
/-
  The accumulators over a row of the grid, against the argument arrays.

  Grid point `t` (of 64) works on box rows `256·(t/8) + r` and on pixel tile `t % 8`: its box blocks are those rows of
  the two box arrays, its pixel block is the tile's columns of the transposed pixel array. So the point's tile terms are
  the specification's `tileInter` / `tileTotal` of those rows at tile `t % 8`, and, by induction along the row of the
  grid, the two accumulators after point `t` hold the partial sums over tiles `0 … t % 8` of `I` and of `S - I`; at the
  row's last point the output block holds the tiled quotient `iouK`.
-/
import proofs.«138246_j39109972198157_2_alg».proof.Proof.KTile
import Idealize.ShloMosaic.Lib.StableHlo.Run
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.PixelIoU

variable (m : (ℓ : Loc nD τ sig) → Buf (Elt Ideal) ℓ)

/-- The three argument arrays as launched. -/
abbrev argP (c : Dev nD) : Boxes := m ((c : Thread nD τ).loc main_arg0)
abbrev argT (c : Dev nD) : Boxes := m ((c : Thread nD τ).loc main_arg1)
abbrev argG (c : Dev nD) : Pixels := m ((c : Thread nD τ).loc main_arg2)

/-- The windows' block indices at point `t`: box blocks and the output block move with `t / 8`, the pixel block with `t % 8`. -/
theorem idx_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The box row that row `r` of point `t`'s blocks is. -/
def boxRow (t : Fin cfg0.N) (r : Fin 256) : Fin 2048 :=
  ⟨256 * (t.val / 8) + r.val, by have := t.isLt; have hN : cfg0.N = 64 := N_0; have := r.isLt; omega⟩

/-! ### The blocks are rows of the arrays -/

theorem iblk0_apply (c : Dev nD) (t : Fin cfg0.N) (r : Fin 256) (j : Fin 5) :
    (iblk m c 0 t : Vec Ideal S256x5 .f32) (ix2 r j) = argP m c (ix2 (boxRow t r) j) := by
  obtain ⟨e0, e1, -⟩ := idx_facts t
  unfold iblk
  rw [View.read_apply]
  show V m c main_arg0 (((cfg0.win 0).blk t).view.emb (ix2 r j)) = _
  rw [V_main_arg0]
  refine congrArg _ (funext fun a => Fin.ext ?_)
  match a with
  | ⟨0, _⟩ => show win0_0.index t (0 : Fin 2) * 256 + 1 * r.val = 256 * (t.val / 8) + r.val; rw [e0]; omega
  | ⟨1, _⟩ => show win0_0.index t (1 : Fin 2) * 5 + 1 * j.val = j.val; rw [e1]; omega

theorem iblk1_apply (c : Dev nD) (t : Fin cfg0.N) (r : Fin 256) (j : Fin 5) :
    (iblk m c 1 t : Vec Ideal S256x5 .f32) (ix2 r j) = argT m c (ix2 (boxRow t r) j) := by
  obtain ⟨-, -, e0, e1, -⟩ := idx_facts t
  unfold iblk
  rw [View.read_apply]
  show V m c main_arg1 (((cfg0.win 1).blk t).view.emb (ix2 r j)) = _
  rw [V_main_arg1]
  refine congrArg _ (funext fun a => Fin.ext ?_)
  match a with
  | ⟨0, _⟩ => show win0_1.index t (0 : Fin 2) * 256 + 1 * r.val = 256 * (t.val / 8) + r.val; rw [e0]; omega
  | ⟨1, _⟩ => show win0_1.index t (1 : Fin 2) * 5 + 1 * j.val = j.val; rw [e1]; omega

/-- The pixel window's array: the pixel array transposed, as the one host operation before the region leaves it. -/
theorem V_pixelsT (c : Dev nD) :
    (V m c main_v0 : S2x16384.Idx → EReal) = transpose S2x16384 [1, 0] (argG m c) transposes_S16384x2_S2x16384_1_0 := by
  show StableHlo.after hostOps0 (fun b => m (c, b)) (Proc.devRef .tc main_v0) = _
  after_results

theorem iblk2_apply (c : Dev nD) (t : Fin cfg0.N) (a : Fin 2) (q : Fin 2048) :
    (iblk m c 2 t : Vec Ideal S2x2048 .f32) (ix2 a q) = argG m c (ix2 (pixel (t.val % 8) q) a) := by
  obtain ⟨-, -, -, -, e0, e1, -⟩ := idx_facts t
  have hq := q.isLt
  have ha := a.isLt
  unfold iblk
  rw [View.read_apply]
  show V m c main_v0 (((cfg0.win 2).blk t).view.emb (ix2 a q)) = _
  rw [V_pixelsT]
  have e : ((cfg0.win 2).blk t).view.emb (ix2 a q)
      = (ix2 a (⟨2048 * (t.val % 8) + q.val, by omega⟩ : Fin 16384) : S2x16384.Idx) := by
    funext b; apply Fin.ext
    match b with
    | ⟨0, _⟩ => show win0_2.index t (0 : Fin 2) * 2 + 1 * a.val = a.val; rw [e0]; omega
    | ⟨1, _⟩ => show win0_2.index t (1 : Fin 2) * 2048 + 1 * q.val = 2048 * (t.val % 8) + q.val; rw [e1]; omega
  rw [e, transpose_ix2_apply]
  refine congrArg _ (congrArg (fun k => ix2 k a) (Fin.ext ?_))
  show 2048 * (t.val % 8) + q.val = (t.val % 8 * 2048 + q.val) % 16384
  omega

/-! ### A point's tile terms are the specification's -/

theorem tileI_eq (c : Dev nD) (t : Fin cfg0.N) (r : Fin 256) :
    tileI (iblk m c 0 t) (iblk m c 1 t) (iblk m c 2 t) r = tileInter (argP m c) (argT m c) (argG m c) (boxRow t r) (t.val % 8) := by
  unfold tileI tileInter
  refine Finset.sum_congr rfl fun q _ => ?_
  simp only [weightK_eq_wK, iblk0_apply m c t r, iblk1_apply m c t r, iblk2_apply m c t]

theorem tileS_eq (c : Dev nD) (t : Fin cfg0.N) (r : Fin 256) :
    tileS (iblk m c 0 t) (iblk m c 1 t) (iblk m c 2 t) r = tileTotal (argP m c) (argT m c) (argG m c) (boxRow t r) (t.val % 8) := by
  unfold tileS tileTotal
  refine Finset.sum_congr rfl fun q _ => ?_
  simp only [weightK_eq_wK, iblk0_apply m c t r, iblk1_apply m c t r, iblk2_apply m c t]

/-! ### What each kind of point leaves, at a box row -/

/-- First point of a grid row: the accumulators are the zero word plus the tile terms. -/
theorem point_A (c : Dev nD) (t : Fin cfg0.N) (h0 : t.val % 8 = 0) (h1 : ¬t.val % 8 = 7) (r : Fin 256) :
    (outsAt0 m c t.val t.isLt).2.1 (ix2 r (0 : Fin 1)) = lit 0x00000000#32 + tileI (iblk m c 0 t) (iblk m c 1 t) (iblk m c 2 t) r
    ∧ (outsAt0 m c t.val t.isLt).2.2 (ix2 r (0 : Fin 1)) = lit 0x00000000#32 + (tileS (iblk m c 0 t) (iblk m c 1 t) (iblk m c 2 t) r - tileI (iblk m c 0 t) (iblk m c 1 t) (iblk m c 2 t) r) := by
  have e := outsAt0_A m c t h0 h1
  exact ⟨(congrFun (congrArg (fun p => p.2.1) e) (ix2 r (0 : Fin 1))).trans
      ((congrFun (sout_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 r (0 : Fin 1))).trans
        ((accInter_apply (iblk m c 0 t) (iblk m c 1 t) (iblk m c 2 t) (k0_pay2 (F := Ideal)) r).trans (congrArg (fun z : EReal => z + tileI (iblk m c 0 t) (iblk m c 1 t) (iblk m c 2 t) r) (zero2_apply (ix2 r (0 : Fin 1)))))),
    (congrFun (congrArg (fun p => p.2.2) e) (ix2 r (0 : Fin 1))).trans
      ((congrFun (sout_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) (ix2 r (0 : Fin 1))).trans
        ((accUnion_apply (iblk m c 0 t) (iblk m c 1 t) (iblk m c 2 t) (k0_pay3 (F := Ideal)) r).trans (congrArg (fun z : EReal => z + (tileS (iblk m c 0 t) (iblk m c 1 t) (iblk m c 2 t) r - tileI (iblk m c 0 t) (iblk m c 1 t) (iblk m c 2 t) r)) (zero3_apply (ix2 r (0 : Fin 1))))))⟩

/-- A middle point: each accumulator gains its tile term over what the point before left. -/
theorem point_B (c : Dev nD) (t : Fin cfg0.N) (h0 : ¬t.val % 8 = 0) (h1 : ¬t.val % 8 = 7) (r : Fin 256) :
    (outsAt0 m c t.val t.isLt).2.1 (ix2 r (0 : Fin 1)) = (outsAt0 m c (t.val - 1) (Nat.lt_of_le_of_lt (Nat.sub_le _ _) t.isLt)).2.1 (ix2 r (0 : Fin 1)) + tileI (iblk m c 0 t) (iblk m c 1 t) (iblk m c 2 t) r
    ∧ (outsAt0 m c t.val t.isLt).2.2 (ix2 r (0 : Fin 1)) = (outsAt0 m c (t.val - 1) (Nat.lt_of_le_of_lt (Nat.sub_le _ _) t.isLt)).2.2 (ix2 r (0 : Fin 1)) + (tileS (iblk m c 0 t) (iblk m c 1 t) (iblk m c 2 t) r - tileI (iblk m c 0 t) (iblk m c 1 t) (iblk m c 2 t) r) := by
  have e := outsAt0_B m c t h0 h1
  exact ⟨(congrFun (congrArg (fun p => p.2.1) e) (ix2 r (0 : Fin 1))).trans
      ((congrFun (sout_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans
        (accInter_apply (iblk m c 0 t) (iblk m c 1 t) (iblk m c 2 t) (outsAt0 m c (t.val - 1) (Nat.lt_of_le_of_lt (Nat.sub_le _ _) t.isLt)).2.1 r)),
    (congrFun (congrArg (fun p => p.2.2) e) (ix2 r (0 : Fin 1))).trans
      ((congrFun (sout_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) (ix2 r (0 : Fin 1))).trans
        (accUnion_apply (iblk m c 0 t) (iblk m c 1 t) (iblk m c 2 t) (outsAt0 m c (t.val - 1) (Nat.lt_of_le_of_lt (Nat.sub_le _ _) t.isLt)).2.2 r))⟩

/-- The last point of a grid row: the same gains, and the output block is the quotient of the accumulators it leaves. -/
theorem point_C (c : Dev nD) (t : Fin cfg0.N) (h0 : ¬t.val % 8 = 0) (h1 : t.val % 8 = 7) (r : Fin 256) :
    (outsAt0 m c t.val t.isLt).2.1 (ix2 r (0 : Fin 1)) = (outsAt0 m c (t.val - 1) (Nat.lt_of_le_of_lt (Nat.sub_le _ _) t.isLt)).2.1 (ix2 r (0 : Fin 1)) + tileI (iblk m c 0 t) (iblk m c 1 t) (iblk m c 2 t) r
    ∧ (outsAt0 m c t.val t.isLt).2.2 (ix2 r (0 : Fin 1)) = (outsAt0 m c (t.val - 1) (Nat.lt_of_le_of_lt (Nat.sub_le _ _) t.isLt)).2.2 (ix2 r (0 : Fin 1)) + (tileS (iblk m c 0 t) (iblk m c 1 t) (iblk m c 2 t) r - tileI (iblk m c 0 t) (iblk m c 1 t) (iblk m c 2 t) r)
    ∧ (outsAt0 m c t.val t.isLt).1 (ix2 r (0 : Fin 1))
        = Ideal.div ((outsAt0 m c t.val t.isLt).2.1 (ix2 r (0 : Fin 1))) ((outsAt0 m c t.val t.isLt).2.2 (ix2 r (0 : Fin 1)) + lit 0x3089705F#32) := by
  have e := outsAt0_C m c t h0 h1
  have e1 : (outsAt0 m c t.val t.isLt).2.1 = accInter (iblk m c 0 t) (iblk m c 1 t) (iblk m c 2 t) (outsAt0 m c (t.val - 1) (Nat.lt_of_le_of_lt (Nat.sub_le _ _) t.isLt)).2.1 :=
    (congrArg (fun p => p.2.1) e).trans
      (sout_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e2 : (outsAt0 m c t.val t.isLt).2.2 = accUnion (iblk m c 0 t) (iblk m c 1 t) (iblk m c 2 t) (outsAt0 m c (t.val - 1) (Nat.lt_of_le_of_lt (Nat.sub_le _ _) t.isLt)).2.2 :=
    (congrArg (fun p => p.2.2) e).trans
      (sout_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  have e3 : (outsAt0 m c t.val t.isLt).1 = k0_pay1 (accInter (iblk m c 0 t) (iblk m c 1 t) (iblk m c 2 t) (outsAt0 m c (t.val - 1) (Nat.lt_of_le_of_lt (Nat.sub_le _ _) t.isLt)).2.1) (accUnion (iblk m c 0 t) (iblk m c 1 t) (iblk m c 2 t) (outsAt0 m c (t.val - 1) (Nat.lt_of_le_of_lt (Nat.sub_le _ _) t.isLt)).2.2) :=
    (congrArg (fun p => p.1) e).trans
      (out_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)
  refine ⟨(congrFun e1 _).trans (accInter_apply (iblk m c 0 t) (iblk m c 1 t) (iblk m c 2 t) (outsAt0 m c (t.val - 1) (Nat.lt_of_le_of_lt (Nat.sub_le _ _) t.isLt)).2.1 r), (congrFun e2 _).trans (accUnion_apply (iblk m c 0 t) (iblk m c 1 t) (iblk m c 2 t) (outsAt0 m c (t.val - 1) (Nat.lt_of_le_of_lt (Nat.sub_le _ _) t.isLt)).2.2 r), ?_⟩
  rw [e3, e1, e2]
  exact ratio_apply _ _ _

end Cert.KernelIdeal.KValue

end
-- ==== Proof.KInv.lean ====
/-
  The induction along a row of the grid.

  After point `t` the two accumulators hold, at box row `256·(t/8) + r`, the sums over the tiles `0 … t % 8` of the tile's
  `I` and of its `S - I`: the first point of a row starts them at the tile-0 terms (the zero word denotes 0), every later
  point of the row adds its tile's terms to what the point before left, and the box rows do not change along the row. At
  the row's last point (tile 7) the output block is therefore the tiled quotient of the specification.
-/
import proofs.«138246_j39109972198157_2_alg».proof.Proof.KAccum

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.PixelIoU

variable (m : (ℓ : Loc nD τ sig) → Buf (Elt Ideal) ℓ)

/-- The sums of the tiles' `I`, and of their `S - I`, over tiles `0 … j`. -/
def partI (P T : Boxes) (G : Pixels) (n : Fin 2048) (j : ℕ) : EReal :=
  ∑ j' ∈ Finset.range (j + 1), tileInter P T G n j'
def partU (P T : Boxes) (G : Pixels) (n : Fin 2048) (j : ℕ) : EReal :=
  ∑ j' ∈ Finset.range (j + 1), (tileTotal P T G n j' - tileInter P T G n j')

/-- The zero word denotes 0. -/
theorem lit_zero0 : lit 0x00000000#32 = 0 := Ideal.ofBits_zero_f32

theorem acc_eq (c : Dev nD) : ∀ (n : ℕ) (h : n < cfg0.N) (r : Fin 256),
    (outsAt0 m c n h).2.1 (ix2 r (0 : Fin 1)) = partI (argP m c) (argT m c) (argG m c) (boxRow ⟨n, h⟩ r) (n % 8)
    ∧ (outsAt0 m c n h).2.2 (ix2 r (0 : Fin 1)) = partU (argP m c) (argT m c) (argG m c) (boxRow ⟨n, h⟩ r) (n % 8)
  | 0, h, r => by
    obtain ⟨e1, e2⟩ := point_A m c ⟨0, h⟩ rfl (by show ¬(0 % 8 = 7); decide) r
    refine ⟨e1.trans ?_, e2.trans ?_⟩
    · rw [tileI_eq m c ⟨0, h⟩ r, lit_zero0, zero_add]
      show tileInter _ _ _ _ (0 % 8) = partI _ _ _ _ (0 % 8)
      simp only [partI, Nat.zero_mod, zero_add, Finset.sum_range_one]
    · rw [tileI_eq m c ⟨0, h⟩ r, tileS_eq m c ⟨0, h⟩ r, lit_zero0, zero_add]
      show tileTotal _ _ _ _ (0 % 8) - tileInter _ _ _ _ (0 % 8) = partU _ _ _ _ (0 % 8)
      simp only [partU, Nat.zero_mod, zero_add, Finset.sum_range_one]
  | n + 1, h, r => by
    have hN : cfg0.N = 64 := N_0
    by_cases h0 : (n + 1) % 8 = 0
    · have h1 : ¬(n + 1) % 8 = 7 := by omega
      obtain ⟨e1, e2⟩ := point_A m c ⟨n + 1, h⟩ h0 h1 r
      refine ⟨e1.trans ?_, e2.trans ?_⟩
      · rw [tileI_eq m c ⟨n + 1, h⟩ r, lit_zero0, zero_add]
        show tileInter _ _ _ _ ((n + 1) % 8) = partI _ _ _ _ ((n + 1) % 8)
        rw [h0]
        simp only [partI, zero_add, Finset.sum_range_one]
      · rw [tileI_eq m c ⟨n + 1, h⟩ r, tileS_eq m c ⟨n + 1, h⟩ r, lit_zero0, zero_add]
        show tileTotal _ _ _ _ ((n + 1) % 8) - tileInter _ _ _ _ ((n + 1) % 8) = partU _ _ _ _ ((n + 1) % 8)
        rw [h0]
        simp only [partU, zero_add, Finset.sum_range_one]
    · obtain ⟨i1, i2⟩ := acc_eq c n (Nat.lt_of_succ_lt h) r
      have hrow : boxRow ⟨n + 1, h⟩ r = boxRow ⟨n, Nat.lt_of_succ_lt h⟩ r :=
        Fin.ext (by show 256 * ((n + 1) / 8) + r.val = 256 * (n / 8) + r.val; omega)
      have hj : (n + 1) % 8 = n % 8 + 1 := by omega
      have step : (outsAt0 m c (n + 1) h).2.1 (ix2 r (0 : Fin 1))
            = (outsAt0 m c n (Nat.lt_of_succ_lt h)).2.1 (ix2 r (0 : Fin 1)) + tileI (iblk m c 0 ⟨n + 1, h⟩) (iblk m c 1 ⟨n + 1, h⟩) (iblk m c 2 ⟨n + 1, h⟩) r
          ∧ (outsAt0 m c (n + 1) h).2.2 (ix2 r (0 : Fin 1))
            = (outsAt0 m c n (Nat.lt_of_succ_lt h)).2.2 (ix2 r (0 : Fin 1)) + (tileS (iblk m c 0 ⟨n + 1, h⟩) (iblk m c 1 ⟨n + 1, h⟩) (iblk m c 2 ⟨n + 1, h⟩) r - tileI (iblk m c 0 ⟨n + 1, h⟩) (iblk m c 1 ⟨n + 1, h⟩) (iblk m c 2 ⟨n + 1, h⟩) r) := by
        by_cases h1 : (n + 1) % 8 = 7
        · exact ⟨(point_C m c ⟨n + 1, h⟩ h0 h1 r).1, (point_C m c ⟨n + 1, h⟩ h0 h1 r).2.1⟩
        · exact point_B m c ⟨n + 1, h⟩ h0 h1 r
      obtain ⟨e1, e2⟩ := step
      refine ⟨e1.trans ?_, e2.trans ?_⟩
      · rw [i1, tileI_eq m c ⟨n + 1, h⟩ r, hrow]
        show _ + tileInter _ _ _ _ ((n + 1) % 8) = partI _ _ _ _ ((n + 1) % 8)
        rw [hj]
        unfold partI
        exact (Finset.sum_range_succ (fun j' => tileInter (argP m c) (argT m c) (argG m c) (boxRow ⟨n, Nat.lt_of_succ_lt h⟩ r) j') (n % 8 + 1)).symm
      · rw [i2, tileI_eq m c ⟨n + 1, h⟩ r, tileS_eq m c ⟨n + 1, h⟩ r, hrow]
        show _ + (tileTotal _ _ _ _ ((n + 1) % 8) - tileInter _ _ _ _ ((n + 1) % 8)) = partU _ _ _ _ ((n + 1) % 8)
        rw [hj]
        unfold partU
        exact (Finset.sum_range_succ (fun j' => tileTotal (argP m c) (argT m c) (argG m c) (boxRow ⟨n, Nat.lt_of_succ_lt h⟩ r) j' - tileInter (argP m c) (argT m c) (argG m c) (boxRow ⟨n, Nat.lt_of_succ_lt h⟩ r) j') (n % 8 + 1)).symm

/-- At the last point of a grid row the output block holds the tiled quotient at its box rows. -/
theorem out_eq (c : Dev nD) (t : Fin cfg0.N) (h1 : t.val % 8 = 7) (r : Fin 256) :
    (outsAt0 m c t.val t.isLt).1 (ix2 r (0 : Fin 1)) = iouK (argP m c) (argT m c) (argG m c) (ix1 (boxRow t r)) := by
  have h0 : ¬t.val % 8 = 0 := by omega
  obtain ⟨-, -, e3⟩ := point_C m c t h0 h1 r
  obtain ⟨i1, i2⟩ := acc_eq m c t.val t.isLt r
  rw [e3, i1, i2, h1]
  rfl

end Cert.KernelIdeal.KValue

end
-- ==== Proof.KRun.lean ====
/-
  From the blocks to the array, and through the reshape after the region.

  The output window writes back only at the last point of each grid row, and there its block — box rows
  `256·(t/8) … 256·(t/8) + 255` of the 2048×1 result — holds the tiled quotient at those rows. The eight row blocks tile the
  array, so after the region the 2048×1 array is the tiled quotient row by row; the one host operation after the region
  reshapes it to 2048 entries, entry `n` being row `n`. The argument arrays end as launched.
-/
import proofs.«138246_j39109972198157_2_alg».proof.Proof.KInv

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

open Idealize.ShloMosaic.ValueIdx Cert.PixelIoU

variable (m : (ℓ : Loc nD τ sig) → Buf (Elt Ideal) ℓ) (ρ : Dev nD → PrngReg)

/-- The region's result array: row `n` holds the tiled quotient at box `n`. -/
def regionOut (c : Dev nD) : Buf (Elt Ideal) ((c : Thread nD τ).loc main_v1) :=
  fun i => iouK (argP m c) (argT m c) (argG m c) (ix1 (show Fin 2048 from i 0))

/-- At the last point of a grid row, the output block is that array's block. -/
theorem out_block (c : Dev nD) (t : Fin cfg0.N) (h7 : t.val % 8 = 7) (y : S256x1.Idx) :
    (outsAt0 m c t.val t.isLt).1 y = regionOut m c (((cfg0.win 3).blk t).view.emb y) := by
  obtain ⟨-, -, -, -, -, -, e0, e1⟩ := idx_facts t
  obtain ⟨r, s, rfl⟩ : ∃ (r : Fin 256) (s : Fin 1), y = ix2 r s := ⟨y 0, y 1, eq_ix2 y⟩
  obtain rfl : s = 0 := Subsingleton.elim _ _
  rw [out_eq m c t h7 r]
  unfold regionOut
  refine congrArg _ (congrArg ix1 (Fin.ext ?_))
  show 256 * (t.val / 8) + r.val = win0_3.index t (0 : Fin 2) * 256 + 1 * r.val
  rw [e0]; omega

/-- What a write-back writes is that array's block. -/
theorem flushed_eq (c : Dev nD) (t : Fin cfg0.N) (hf : (cfg0.win 3).flush t = true) :
    (dats m 0 c).flushed 3 t = ((cfg0.win 3).blk t).view.read (Elt Ideal) (regionOut m c) := by
  have h7 : t.val % 8 = 7 := (flush0_3 t).mp hf
  show (cfg0.win 3).cut (grid0.coords t) ((dats m 0 c).after 3 t) = _
  rw [after0_3]
  funext y
  exact out_block m c t h7 y

/-- An index of the result array is in point `t`'s block iff each coordinate is in the block's range. -/
theorem mem_blk3 (t : Fin cfg0.N) (i : S2048x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v1).slice (win0_3.rect t)).set ↔ _
  rw [View.set_slice_whole, Rect.mem_set_unit]
  exact Iff.rfl

/-- The result array after the region. -/
theorem final3 (c : Dev nD) : (dats m 0 c).arrAt 3 cfg0.N = regionOut m c :=
  (dats m 0 c).arrAt_eq_of_cover 3 (regionOut m c) (fun t hf => flushed_eq m c t hf) (fun i => by
    have hN : cfg0.N = 64 := N_0
    have hi0 : (i 0).val < 2048 := (i 0).isLt
    have hi1 : (i 1).val < 1 := (i 1).isLt
    obtain ⟨t, ht⟩ : ∃ t : Fin cfg0.N, t.val = 8 * ((i 0).val / 256) + 7 := ⟨⟨8 * ((i 0).val / 256) + 7, by omega⟩, rfl⟩
    obtain ⟨-, -, -, -, -, -, e0, e1⟩ := idx_facts t
    refine ⟨t, (flush0_3 t).mpr (by omega), ?_⟩
    rw [mem_blk3]
    intro a
    match a with
    | ⟨0, _⟩ =>
      show win0_3.index t (0 : Fin 2) * 256 ≤ (i 0).val ∧ (i 0).val < win0_3.index t (0 : Fin 2) * 256 + 256
      rw [e0]; omega
    | ⟨1, _⟩ =>
      show win0_3.index t (1 : Fin 2) * 1 ≤ (i 1).val ∧ (i 1).val < win0_3.index t (1 : Fin 2) * 1 + 1
      rw [e1]; omega)

/-- The reshape after the region: entry `n` of the result is row `n` of the region's array. -/
theorem tail_eq (c : Dev nD) :
    Pipeline.afterTail₀ cfgs (dats m) 0 (V0 m) [hostOps1] c main_v2 = iouK (argP m c) (argT m c) (argG m c) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc (Pipeline.arrRef spec0 3))
      = regionOut m c :=
    (Pipeline.withArrays_arr spec0 launch0.win.arr_inj c (V0 m c) (fun w => (dats m 0 c).arrAt w cfg0.N) 3).trans (final3 m c)
  funext i
  show shapeCast S2048 (Pipeline.withArrays spec0 c (V0 m c) (fun w => (dats m 0 c).arrAt w cfg0.N)
    (Proc.devRef .tc (Pipeline.arrRef spec0 3))) shapeCasts_S2048x1_S2048 i = _
  rw [e]
  obtain ⟨n, rfl⟩ : ∃ n : Fin 2048, i = ix1 n := ⟨i 0, eq_ix1 i⟩
  refine (shapeCast_apply (regionOut m c) shapeCasts_S2048x1_S2048 (ix1 n) (ix2 n (0 : Fin 1)) ?_).trans rfl
  show ((⟨2, ![2048, 1]⟩ : Shape).rowMajor (ix2 n (0 : Fin 1))).val = ((⟨1, ![2048]⟩ : Shape).rowMajor (ix1 n)).val
  rw [Shape.rowMajor_val_two, Shape.rowMajor_val_one]
  show n.val * 1 + 0 = n.val
  omega

/-- The run, read: the result holds the tiled quotient of the launched arrays, and the arrays end as launched. -/
theorem run : θ_run defs (onTc (τ := τ) (main (F := Ideal))) ⟨m, fun _ => 0, ρ⟩ fun r => ∀ c : Dev nD,
      r.2.mem ((c : Thread nD τ).loc main_v2) = iouK (argP m c) (argT m c) (argG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  The five claims.

  Both programs compute, for each of 2048 boxes, the soft intersection-over-union `I / ((S - I) + ε)` of the box's two
  pixel-membership rows. The kernel's run ends with its result at the tiled spelling of that quantity (the membership
  as one quotient, the sums taken tile by tile and accumulated along a row of the grid); the reference's run ends at the
  whole-array spelling (the membership as a product of two quotients, one sum over all pixels). On the extended reals
  the two spellings are one function of the argument arrays — every membership is a real in [0, 1], which is what lets
  the per-tile differences `S_j - I_j` be summed apart — so from memories that agree on the arguments the two results
  are equal. The precondition is not used. The three frames are the generated ones (the reference's is its run with the
  result dropped); the idealization rewrote nothing.
-/
import proofs.«138246_j39109972198157_2_alg».proof.Defs
import proofs.«138246_j39109972198157_2_alg».proof.Proof.Gen.Kernel
import proofs.«138246_j39109972198157_2_alg».proof.Proof.Gen.Kernel.Skeleton
import proofs.«138246_j39109972198157_2_alg».proof.Proof.Gen.Kernel.Launch
import proofs.«138246_j39109972198157_2_alg».proof.Proof.Gen.Kernel.Points
import proofs.«138246_j39109972198157_2_alg».proof.Proof.Gen.Kernel.Frame
import proofs.«138246_j39109972198157_2_alg».proof.Proof.Gen.KernelIdeal
import proofs.«138246_j39109972198157_2_alg».proof.Proof.Gen.KernelIdeal.Skeleton
import proofs.«138246_j39109972198157_2_alg».proof.Proof.Gen.KernelIdeal.Launch
import proofs.«138246_j39109972198157_2_alg».proof.Proof.Gen.KernelIdeal.Points
import proofs.«138246_j39109972198157_2_alg».proof.Proof.Gen.KernelIdeal.Frame
import proofs.«138246_j39109972198157_2_alg».proof.Proof.Gen.ReferenceIdeal
import proofs.«138246_j39109972198157_2_alg».proof.Proof.Gen.Pre_finite_inputs
import proofs.«138246_j39109972198157_2_alg».proof.Proof.RefSide
import proofs.«138246_j39109972198157_2_alg».proof.Proof.Algebra
import proofs.«138246_j39109972198157_2_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result is the tiled spelling of the launched arrays, the reference's the whole-array spelling of arrays
    that agree with them: one function. -/
theorem algebraic : Cert.algebraic_KernelIdeal_ReferenceIdeal := by
  intro m ρ m' ρ' _ hagree
  refine ⟨fun c => Cert.PixelIoU.iouK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, Cert.ReferenceIdeal.RefValue.ref_eq, (hagree c).1, (hagree c).2.1,
    (hagree c).2.2]
  exact (Cert.PixelIoU.iouK_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
